-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32x32 .f32) (main_arg6 : FVec F S32x32 .f32) (main_arg7 : FVec F S32 .f32) (main_arg8 : FVec F S32x1 .f32) (main_arg9 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x32 .f32) (main_arg3 : FVec F S128x32 .f32) (main_arg4 : FVec F S32 .f32) (main_arg5 : FVec F S32x32 .f32) (main_arg6 : FVec F S32x32 .f32) (main_arg7 : FVec F S32 .f32) (main_arg8 : FVec F S32x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S5000x128 : Shape := ⟨2, ![5000, 128]⟩
abbrev S5000x32 : Shape := ⟨2, ![5000, 32]⟩
abbrev S1600000x32 : Shape := ⟨2, ![1600000, 32]⟩
abbrev S1x32 : Shape := ⟨2, ![1, 32]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 92
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S100000x32, .f32⟩
  | .hbm, ⟨51, _⟩ => ⟨S100000x32, .f32⟩
  | .hbm, ⟨52, _⟩ => ⟨S1600000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x32, .f32⟩
  | .hbm, ⟨62, _⟩ => ⟨S1600000x32, .f32⟩
  | .hbm, ⟨63, _⟩ => ⟨S1600000x32, .f32⟩
  | .hbm, ⟨64, _⟩ => ⟨S_, .f32⟩
  | .hbm, ⟨65, _⟩ => ⟨S100000x32, .f32⟩
  | .hbm, ⟨66, _⟩ => ⟨S1600000x1, .i32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S1600000x1, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x32, .f32⟩
  | .hbm, ⟨82, _⟩ => ⟨S1600000x32, .f32⟩
  | .hbm, ⟨83, _⟩ => ⟨S1600000x32, .f32⟩
  | .hbm, ⟨84, _⟩ => ⟨S_, .f32⟩
  | .hbm, ⟨85, _⟩ => ⟨S100000x32, .f32⟩
  | .hbm, ⟨86, _⟩ => ⟨S1600000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S1x1, .f32⟩
  | .hbm, ⟨91, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S128x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S1x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S32x32, .f32⟩
  | .local _ .vmem, ⟨18, _⟩ => ⟨S32x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S1x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S32x1, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_c_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29_0) S5000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29_1) S5000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v42) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29_1) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45_0) S5000x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45_1) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v58) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45_1) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v60) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S1600000x32 : Shape := ⟨2, ![1600000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1x1600000, .i32⟩
  | .hbm, ⟨51, _⟩ => ⟨S1600000, .i32⟩
  | .hbm, ⟨52, _⟩ => ⟨S1x1600000, .i32⟩
  | .hbm, ⟨53, _⟩ => ⟨S1600000, .i32⟩
  | .hbm, ⟨54, _⟩ => ⟨S100000x32, .f32⟩
  | .hbm, ⟨55, _⟩ => ⟨S1600000x1, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x32, .f32⟩
  | .hbm, ⟨65, _⟩ => ⟨S1600000x32, .f32⟩
  | .hbm, ⟨66, _⟩ => ⟨S1600000x32, .f32⟩
  | .hbm, ⟨67, _⟩ => ⟨S_, .f32⟩
  | .hbm, ⟨68, _⟩ => ⟨S100000x32, .f32⟩
  | .hbm, ⟨69, _⟩ => ⟨S1600000x1, .i32⟩
  | .hbm, ⟨70, _⟩ => ⟨S100000x32, .f32⟩
  | .hbm, ⟨71, _⟩ => ⟨S100000x32, .f32⟩
  | .hbm, ⟨72, _⟩ => ⟨S100000x32, .f32⟩
  | .hbm, ⟨73, _⟩ => ⟨S1x32, .f32⟩
  | .hbm, ⟨74, _⟩ => ⟨S100000x32, .f32⟩
  | .hbm, ⟨75, _⟩ => ⟨S100000x32, .f32⟩
  | .hbm, ⟨76, _⟩ => ⟨S_, .f32⟩
  | .hbm, ⟨77, _⟩ => ⟨S100000x32, .f32⟩
  | .hbm, ⟨78, _⟩ => ⟨S100000x32, .f32⟩
  | .hbm, ⟨79, _⟩ => ⟨S_, .f32⟩
  | .hbm, ⟨80, _⟩ => ⟨S100000x32, .f32⟩
  | .hbm, ⟨81, _⟩ => ⟨S100000x32, .f32⟩
  | .hbm, ⟨82, _⟩ => ⟨S1x1600000, .i32⟩
  | .hbm, ⟨83, _⟩ => ⟨S1600000, .i32⟩
  | .hbm, ⟨84, _⟩ => ⟨S1x1600000, .i32⟩
  | .hbm, ⟨85, _⟩ => ⟨S1600000, .i32⟩
  | .hbm, ⟨86, _⟩ => ⟨S100000x32, .f32⟩
  | .hbm, ⟨87, _⟩ => ⟨S1600000x1, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x32, .f32⟩
  | .hbm, ⟨97, _⟩ => ⟨S1600000x32, .f32⟩
  | .hbm, ⟨98, _⟩ => ⟨S1600000x32, .f32⟩
  | .hbm, ⟨99, _⟩ => ⟨S_, .f32⟩
  | .hbm, ⟨100, _⟩ => ⟨S100000x32, .f32⟩
  | .hbm, ⟨101, _⟩ => ⟨S1600000x1, .i32⟩
  | .hbm, ⟨102, _⟩ => ⟨S100000x32, .f32⟩
  | .hbm, ⟨103, _⟩ => ⟨S100000x32, .f32⟩
  | .hbm, ⟨104, _⟩ => ⟨S100000x32, .f32⟩
  | .hbm, ⟨105, _⟩ => ⟨S1x32, .f32⟩
  | .hbm, ⟨106, _⟩ => ⟨S100000x32, .f32⟩
  | .hbm, ⟨107, _⟩ => ⟨S100000x32, .f32⟩
  | .hbm, ⟨108, _⟩ => ⟨S_, .f32⟩
  | .hbm, ⟨109, _⟩ => ⟨S100000x32, .f32⟩
  | .hbm, ⟨110, _⟩ => ⟨S100000x32, .f32⟩
  | .hbm, ⟨111, _⟩ => ⟨S_, .f32⟩
  | .hbm, ⟨112, _⟩ => ⟨S100000x32, .f32⟩
  | .hbm, ⟨113, _⟩ => ⟨S100000x32, .f32⟩
  | .hbm, ⟨114, _⟩ => ⟨S100000x1, .f32⟩
  | .hbm, ⟨115, _⟩ => ⟨S1x1, .f32⟩
  | .hbm, ⟨116, _⟩ => ⟨S100000x1, .f32⟩
  | .hbm, ⟨117, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call3_cst : Ref sig .tc := ⟨.hbm, 108, rfl⟩
abbrev main_call3_v0 : Ref sig .tc := ⟨.hbm, 109, rfl⟩
abbrev main_v77 : Ref sig .tc := ⟨.hbm, 110, rfl⟩
abbrev main_call4_cst : Ref sig .tc := ⟨.hbm, 111, rfl⟩
abbrev main_call4_v0 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run, with its result array named.

  The program is five tiled kernel launches among stretches of host operations.  Its buffer contents are
  followed boundary by boundary from the launch memory: a host stretch applies its operations' pure
  functions, a launch replaces each of its output arrays by what its grid points wrote back and leaves every
  other buffer alone.  Every weakly fair execution terminates, and in the final state every unscoped buffer
  holds the last boundary's contents; read at the result buffer that is the statement below, read at the
  argument buffers (which nothing writes) it is the launch memory.
-/
import proofs.«123793_j56332791054868_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents, and the ten argument arrays end as launched. -/
theorem run_result : θ_run defs (onTc (τ := τ) (main (F := F))) ⟨m, fun _ => 0, ρ⟩ (fun r => ∀ c : Dev nD,
      r.2.mem ((c.tc : Thread nD τ).loc main_v62) = W11 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v62 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Whole

end
-- ==== Proof.HostSteps.lean ====
/-
  The host operations between the kernel launches, read as pure functions.

  A stretch of host operations changes only the buffers it writes; every other buffer keeps its contents (one
  inclusion per stretch: each operation's written buffer is in the stretch's list).  The stretch after a
  projection launch gathers the projected rows at the edges' source nodes, scales each by the edge's
  normalisation coefficient and scatter-adds them at the edges' target nodes; it also views the bias vector as a
  one-row matrix.  Read at its result buffer, each stretch is that composition applied to the contents it was
  entered with.
-/
import proofs.«123793_j56332791054868_1_alg».proof.Proof.Gen.KernelIdeal.Frame
import Idealize.ShloMosaic.PureOps.Ideal.Laws
import Idealize.ShloMosaic.Lib.StableHlo.Run

set_option maxRecDepth 16384

noncomputable section

namespace Cert.KernelIdeal.HostSteps

open Cert.KernelIdeal Cert.KernelIdeal.Gen Idealize.ShloMosaic Idealize.ShloMosaic.TcCoe Idealize.SL.Sem

/-! ## What each stretch leaves alone -/

/-- The buffers the stretch `hostOps0` writes. -/
def written0 : List (Ref sig .tc) := [main_v0, main_v1, main_v2, main_v3, main_cst, main_v4, main_cst_0, main_v5, main_v6, main_v7, main_cst_1, main_v8, main_v9, main_cst_2, main_v10, main_v11, main_v12, main_cst_3]

set_option maxHeartbeats 4000000 in
theorem writes0 : (hostOps0 (F := Ideal)).Forall fun op => op.writes ⊆ (written0.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes]
  repeat' apply And.intro
  all_goals (rw [Finset.singleton_subset_iff]; exact List.mem_toFinset.mpr (List.mem_map.mpr ⟨_, by decide, rfl⟩))

/-- A buffer the stretch does not write keeps its contents. -/
theorem keep0 (V : Valuation τ sig (Elt Ideal)) (r : Ref sig .tc) (hr : r ∉ written0) :
    StableHlo.after hostOps0 V (Proc.devRef .tc r) = V (Proc.devRef .tc r) :=
  StableHlo.after_of_writes_sub hostOps0 V writes0 hr

/-- The buffers the stretch `hostOps0_1` writes. -/
def written0_1 : List (Ref sig .tc) := [main_call0_v0, main_call0_v1, main_v13]

set_option maxHeartbeats 4000000 in
theorem writes0_1 : (hostOps0_1 (F := Ideal)).Forall fun op => op.writes ⊆ (written0_1.map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, StableHlo.binaryIndexed_writes]
  repeat' apply And.intro
  all_goals (rw [Finset.singleton_subset_iff]; exact List.mem_toFinset.mpr (List.mem_map.mpr ⟨_, by decide, rfl⟩))

/-- A buffer the stretch does not write keeps its contents. -/
theorem keep0_1 (V : Valuation τ sig (Elt Ideal)) (r : Ref sig .tc) (hr : r ∉ written0_1) :
    StableHlo.after hostOps0_1 V (Proc.devRef .tc r) = V (Proc.devRef .tc r) :=
  StableHlo.after_of_writes_sub hostOps0_1 V writes0_1 hr

/-- The buffers the stretch `hostOps0_2` writes. -/
def written0_2 : List (Ref sig .tc) := [main_c, main_v14, main_v15, main_c_4, main_v16, main_v17, main_v18, main_v19, main_v20, main_c_5, main_v21, main_v22, main_c_6, main_v23, main_v24, main_v25, main_v26, main_v27, main_v28]

set_option maxHeartbeats 4000000 in
theorem writes0_2 : (hostOps0_2 (F := Ideal)).Forall fun op => op.writes ⊆ (written0_2.map (Proc.devRef (τ := τ) .tc)).toFinset := by
  simp only [hostOps0_2, List.Forall, StableHlo.nullary_writes, StableHlo.unary_writes, StableHlo.binary_writes, StableHlo.ternary_writes,
    StableHlo.quaternary_writes, StableHlo.reshape_writes, StableHlo.binaryIndexed_writes]
  repeat' apply And.intro
  all_goals (rw [Finset.singleton_subset_iff]; exact List.mem_toFinset.mpr (List.mem_map.mpr ⟨_, by decide, rfl⟩))

/-- A buffer the stretch does not write keeps its contents. -/
theorem keep0_2 (V : Valuation τ sig (Elt Ideal)) (r : Ref sig .tc) (hr : r ∉ written0_2) :
    StableHlo.after hostOps0_2 V (Proc.devRef .tc r) = V (Proc.devRef .tc r) :=
  StableHlo.after_of_writes_sub hostOps0_2 V writes0_2 hr

/-- The buffers the stretch `hostOps1` writes. -/
def written1 : List (Ref sig .tc) := [main_v30, main_c_7, main_v31, main_v32, main_c_8, main_v33, main_v34, main_v35, main_v36, main_v37, main_v38, main_v39, main_cst_9, main_v40, main_v41, main_v42, main_v43]

set_option maxHeartbeats 4000000 in
theorem writes1 : (hostOps1 (F := Ideal)).Forall fun op => op.writes ⊆ (written1.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, StableHlo.binaryIndexed_writes]
  repeat' apply And.intro
  all_goals (rw [Finset.singleton_subset_iff]; exact List.mem_toFinset.mpr (List.mem_map.mpr ⟨_, by decide, rfl⟩))

/-- A buffer the stretch does not write keeps its contents. -/
theorem keep1 (V : Valuation τ sig (Elt Ideal)) (r : Ref sig .tc) (hr : r ∉ written1) :
    StableHlo.after hostOps1 V (Proc.devRef .tc r) = V (Proc.devRef .tc r) :=
  StableHlo.after_of_writes_sub hostOps1 V writes1 hr

/-- The buffers the stretch `hostOps3` writes. -/
def written3 : List (Ref sig .tc) := [main_v46, main_c_10, main_v47, main_v48, main_c_11, main_v49, main_v50, main_v51, main_v52, main_v53, main_v54, main_v55, main_cst_12, main_v56, main_v57, main_v58, main_v59]

set_option maxHeartbeats 4000000 in
theorem writes3 : (hostOps3 (F := Ideal)).Forall fun op => op.writes ⊆ (written3.map (Proc.devRef (τ := τ) .tc)).toFinset := by
  simp only [hostOps3, List.Forall, StableHlo.nullary_writes, StableHlo.unary_writes, StableHlo.binary_writes, StableHlo.ternary_writes,
    StableHlo.quaternary_writes, StableHlo.reshape_writes, StableHlo.binaryIndexed_writes]
  repeat' apply And.intro
  all_goals (rw [Finset.singleton_subset_iff]; exact List.mem_toFinset.mpr (List.mem_map.mpr ⟨_, by decide, rfl⟩))

/-- A buffer the stretch does not write keeps its contents. -/
theorem keep3 (V : Valuation τ sig (Elt Ideal)) (r : Ref sig .tc) (hr : r ∉ written3) :
    StableHlo.after hostOps3 V (Proc.devRef .tc r) = V (Proc.devRef .tc r) :=
  StableHlo.after_of_writes_sub hostOps3 V writes3 hr

/-- The buffers the stretch `hostOps4` writes. -/
def written4 : List (Ref sig .tc) := [main_v61]

set_option maxHeartbeats 4000000 in
theorem writes4 : (hostOps4 (F := Ideal)).Forall fun op => op.writes ⊆ (written4.map (Proc.devRef (τ := τ) .tc)).toFinset := by
  simp only [hostOps4, List.Forall, StableHlo.nullary_writes, StableHlo.unary_writes, StableHlo.binary_writes, StableHlo.ternary_writes,
    StableHlo.quaternary_writes, StableHlo.reshape_writes, StableHlo.binaryIndexed_writes]
  repeat' apply And.intro
  all_goals (rw [Finset.singleton_subset_iff]; exact List.mem_toFinset.mpr (List.mem_map.mpr ⟨_, by decide, rfl⟩))

/-- A buffer the stretch does not write keeps its contents. -/
theorem keep4 (V : Valuation τ sig (Elt Ideal)) (r : Ref sig .tc) (hr : r ∉ written4) :
    StableHlo.after hostOps4 V (Proc.devRef .tc r) = V (Proc.devRef .tc r) :=
  StableHlo.after_of_writes_sub hostOps4 V writes4 hr

/-- A buffer none of the three stretches before the first launch writes keeps its launch contents. -/
theorem keep_before (V : Valuation τ sig (Elt Ideal)) (r : Ref sig .tc) (h0 : r ∉ written0) (h1 : r ∉ written0_1)
    (h2 : r ∉ written0_2) :
    StableHlo.after hostOps0_2 (StableHlo.after hostOps0_1 (StableHlo.after hostOps0 V)) (Proc.devRef .tc r) = V (Proc.devRef .tc r) :=
  (keep0_2 _ r h2).trans ((keep0_1 _ r h1).trans (keep0 V r h0))

/-! ## The message passing step -/

/-- Gather the rows of `H` at the source nodes (a negative index wrapped by the node count, as jnp does), scale row e
    by the coefficient `N e`, and scatter-add the rows at the target nodes onto zeros. -/
def aggregate (N : (⟨S1600000, .f32⟩ : BufTy).Contents (Elt Ideal)) (src tgt : (⟨S1600000, .i32⟩ : BufTy).Contents (Elt Ideal))
    (H : (⟨S100000x32, .f32⟩ : BufTy).Contents (Elt Ideal)) : (⟨S100000x32, .f32⟩ : BufTy).Contents (Elt Ideal) :=
  Host.scatterAdd scatter_S100000x32_S1600000x1_S1600000x32_1_0_0_1
    (broadcastInDim S100000x32 ![] Facts₀.bcast_S_S100000x32 (constant (F := Ideal) S_ .f32 0x00000000#32))
    (broadcastInDim S1600000x1 ![0] Facts₀.bcast_S1600000_S1600000x1_0 tgt)
    (mulf
      (broadcastInDim S1600000x32 ![0, 1] Facts₀.bcast_S1600000x1_S1600000x32_0_1
        (broadcastInDim S1600000x1 ![0] Facts₀.bcast_S1600000_S1600000x1_0 N))
      (Host.gather gather_S100000x32_S1600000x1_S1600000x32_1_0_n_n_0_1_132 H
        (broadcastInDim S1600000x1 ![0] Facts₀.bcast_S1600000_S1600000x1_0
          (select
            (cmpi CmpIPredicate.slt src (broadcastInDim S1600000 ![] Facts₀.bcast_S_S1600000 (constantI S_ 32 0#32)))
            (addi src (broadcastInDim S1600000 ![] Facts₀.bcast_S_S1600000 (constantI S_ 32 100000#32)))
            src))))

set_option maxHeartbeats 4000000 in
/-- The stretch after the first projection launch, at the aggregated messages' buffer. -/
theorem read_agg1 (V : Valuation τ sig (Elt Ideal)) :
    StableHlo.after hostOps1 V (Proc.devRef .tc main_v42)
      = aggregate (V (Proc.devRef .tc main_v28)) (V (Proc.devRef .tc main_v1)) (V (Proc.devRef .tc main_v3))
          (V (Proc.devRef .tc main_v29_0)) := by
  dsimp only [hostOps1]
  after_results_simp
  rfl

set_option maxHeartbeats 4000000 in
/-- The same stretch at the first bias row's buffer: the bias vector viewed as one row. -/
theorem read_bias1 (V : Valuation τ sig (Elt Ideal)) :
    StableHlo.after hostOps1 V (Proc.devRef .tc main_v43)
      = shapeCast S1x32 (V (Proc.devRef .tc main_arg4)) Facts₀.shapeCasts_S32_S1x32 := by
  dsimp only [hostOps1]
  after_results_simp
  rfl

set_option maxHeartbeats 4000000 in
/-- The stretch after the second projection launch, at the aggregated messages' buffer. -/
theorem read_agg2 (V : Valuation τ sig (Elt Ideal)) :
    StableHlo.after hostOps3 V (Proc.devRef .tc main_v58)
      = aggregate (V (Proc.devRef .tc main_v28)) (V (Proc.devRef .tc main_v1)) (V (Proc.devRef .tc main_v3))
          (V (Proc.devRef .tc main_v45_0)) := by
  dsimp only [hostOps3]
  after_results_simp
  rfl

set_option maxHeartbeats 4000000 in
/-- The same stretch at the second bias row's buffer. -/
theorem read_bias2 (V : Valuation τ sig (Elt Ideal)) :
    StableHlo.after hostOps3 V (Proc.devRef .tc main_v59)
      = shapeCast S1x32 (V (Proc.devRef .tc main_arg7)) Facts₀.shapeCasts_S32_S1x32 := by
  dsimp only [hostOps3]
  after_results_simp
  rfl

set_option maxHeartbeats 4000000 in
/-- The one operation before the last launch: the head's bias viewed as a [1, 1] array. -/
theorem read_bias3 (V : Valuation τ sig (Elt Ideal)) :
    StableHlo.after hostOps4 V (Proc.devRef .tc main_v61)
      = shapeCast S1x1 (V (Proc.devRef .tc main_arg9)) Facts₀.shapeCasts_S1_S1x1 := by
  dsimp only [hostOps4]
  after_results_simp
  rfl

end Cert.KernelIdeal.HostSteps

end
-- ==== Proof.NormStep.lean ====
/-
  The host operations before the first launch, read as functions of the edge list.

  Before the first launch the host computes, from the edge list alone: the source and target node of every edge
  (the two rows of the edge list), the in-degree of every node (a scatter-add of ones at the targets), the
  coefficient 1/sqrt(max (degree, 1)) where the degree is positive and zero elsewhere, and for every edge the
  product of its two endpoints' coefficients.  The reference performs the same operations on the same array, so
  each of the three buffers read here is the reference's stage of that name applied to the launch contents of
  the edge list.  The operations come in three stretches (the degree and its inverse root; the selection of the
  coefficient; the gathers at the endpoints), read one stretch at a time.
-/
import proofs.«123793_j56332791054868_1_alg».proof.Proof.Gen.KernelIdeal.Frame
import proofs.«123793_j56332791054868_1_alg».proof.Proof.RefReadPatched
import proofs.«123793_j56332791054868_1_alg».proof.Proof.HostSteps
import Idealize.ShloMosaic.PureOps.Ideal.Laws
import Idealize.ShloMosaic.Lib.StableHlo.Run

set_option maxRecDepth 16384

noncomputable section

namespace Cert.KernelIdeal.NormStep

open Cert.KernelIdeal Cert.KernelIdeal.Gen Idealize.ShloMosaic Idealize.ShloMosaic.TcCoe Idealize.SL.Sem
open Cert.KernelIdeal.HostSteps
open Cert.ReferenceIdeal.ReadP

/-! ## The first stretch: endpoints, degree, inverse root -/

set_option maxHeartbeats 4000000 in
/-- The edges' source nodes. -/
theorem read_src (V : Valuation τ sig (Elt Ideal)) :
    StableHlo.after hostOps0 V (Proc.devRef .tc main_v1) = val_main_v1 (F := Ideal) (V (Proc.devRef .tc main_arg1)) := by
  dsimp only [hostOps0]
  after_results_simp
  rfl

set_option maxHeartbeats 4000000 in
/-- The edges' target nodes. -/
theorem read_tgt (V : Valuation τ sig (Elt Ideal)) :
    StableHlo.after hostOps0 V (Proc.devRef .tc main_v3) = val_main_v3 (F := Ideal) (V (Proc.devRef .tc main_arg1)) := by
  dsimp only [hostOps0]
  after_results_simp
  rfl

set_option maxHeartbeats 4000000 in
/-- Where the in-degree is positive. -/
theorem read_pos (V : Valuation τ sig (Elt Ideal)) :
    StableHlo.after hostOps0 V (Proc.devRef .tc main_v9) = val_main_v9 (F := Ideal) (V (Proc.devRef .tc main_arg1)) := by
  dsimp only [hostOps0]
  after_results_simp
  rfl

set_option maxHeartbeats 4000000 in
/-- The inverse root of max (degree, 1). -/
theorem read_rsqrt (V : Valuation τ sig (Elt Ideal)) :
    StableHlo.after hostOps0 V (Proc.devRef .tc main_v12) = val_main_v12 (F := Ideal) (V (Proc.devRef .tc main_arg1)) := by
  dsimp only [hostOps0]
  after_results_simp
  rfl

set_option maxHeartbeats 4000000 in
/-- The zero the coefficient takes where the degree is zero. -/
theorem read_zero (V : Valuation τ sig (Elt Ideal)) :
    StableHlo.after hostOps0 V (Proc.devRef .tc main_cst_3) = val_main_cst_3 (F := Ideal) := by
  dsimp only [hostOps0]
  after_results_simp
  rfl

/-! ## The second stretch: the coefficient -/

/-- The inverse root where the degree is positive, the given scalar elsewhere. -/
def coef (pos : (⟨S100000, .i1⟩ : BufTy).Contents (Elt Ideal)) (rs : (⟨S100000, .f32⟩ : BufTy).Contents (Elt Ideal))
    (z : (⟨S_, .f32⟩ : BufTy).Contents (Elt Ideal)) : (⟨S100000, .f32⟩ : BufTy).Contents (Elt Ideal) :=
  select pos rs (broadcastInDim S100000 ![] Facts₀.bcast_S_S100000 (id z))

set_option maxHeartbeats 4000000 in
theorem read_coef (V : Valuation τ sig (Elt Ideal)) :
    StableHlo.after hostOps0_1 V (Proc.devRef .tc main_v13)
      = coef (V (Proc.devRef .tc main_v9)) (V (Proc.devRef .tc main_v12)) (V (Proc.devRef .tc main_cst_3)) := by
  dsimp only [hostOps0_1]
  after_results_simp
  rfl

/-! ## The third stretch: the product of the two endpoints' coefficients -/

/-- An index column from node indices, a negative index wrapped by the node count (as jnp does). -/
def wrapCol (ix : (⟨S1600000, .i32⟩ : BufTy).Contents (Elt Ideal)) : (⟨S1600000x1, .i32⟩ : BufTy).Contents (Elt Ideal) :=
  broadcastInDim S1600000x1 ![0] Facts₀.bcast_S1600000_S1600000x1_0
    (select (cmpi CmpIPredicate.slt ix (broadcastInDim S1600000 ![] Facts₀.bcast_S_S1600000 (constantI S_ 32 0#32)))
      (addi ix (broadcastInDim S1600000 ![] Facts₀.bcast_S_S1600000 (constantI S_ 32 100000#32))) ix)

/-- The per-edge product of the coefficients gathered at the source and at the target. -/
def edgeNorm (cf : (⟨S100000, .f32⟩ : BufTy).Contents (Elt Ideal)) (src tgt : (⟨S1600000, .i32⟩ : BufTy).Contents (Elt Ideal)) :
    (⟨S1600000, .f32⟩ : BufTy).Contents (Elt Ideal) :=
  mulf (F := Ideal) (Host.gather gather_S100000_S1600000x1_S1600000_n_0_n_n_0_1_1 cf (wrapCol src) : FVec Ideal S1600000 .f32)
    (Host.gather gather_S100000_S1600000x1_S1600000_n_0_n_n_0_1_1 cf (wrapCol tgt) : FVec Ideal S1600000 .f32)

set_option maxHeartbeats 4000000 in
theorem read_edge (V : Valuation τ sig (Elt Ideal)) :
    StableHlo.after hostOps0_2 V (Proc.devRef .tc main_v28)
      = edgeNorm (V (Proc.devRef .tc main_v13)) (V (Proc.devRef .tc main_v1)) (V (Proc.devRef .tc main_v3)) := by
  dsimp only [hostOps0_2]
  after_results_simp
  rfl

/-! ## Joined: the reference's stages of the edge list -/

/-- The same operations, stage by stage, are the reference's coefficient vector. -/
theorem edgeNorm_eq (x1 : (⟨Cert.ReferenceIdeal.S2x1600000, .i32⟩ : BufTy).Contents (Elt Ideal)) :
    edgeNorm (coef (val_main_v9 (F := Ideal) x1) (val_main_v12 (F := Ideal) x1) (val_main_cst_3 (F := Ideal)))
        (val_main_v1 (F := Ideal) x1) (val_main_v3 (F := Ideal) x1)
      = val_main_v28 (F := Ideal) x1 := rfl

/-- The per-edge normalisation coefficients before the first launch. -/
theorem norm_before (V : Valuation τ sig (Elt Ideal)) :
    StableHlo.after hostOps0_2 (StableHlo.after hostOps0_1 (StableHlo.after hostOps0 V)) (Proc.devRef .tc main_v28)
      = val_main_v28 (F := Ideal) (V (Proc.devRef .tc main_arg1)) := by
  rw [read_edge, read_coef, keep0_1 _ main_v1 (by decide), keep0_1 _ main_v3 (by decide), read_pos, read_rsqrt, read_zero,
    read_src, read_tgt]
  exact edgeNorm_eq _

/-- The edges' source nodes before the first launch. -/
theorem src_before (V : Valuation τ sig (Elt Ideal)) :
    StableHlo.after hostOps0_2 (StableHlo.after hostOps0_1 (StableHlo.after hostOps0 V)) (Proc.devRef .tc main_v1)
      = val_main_v1 (F := Ideal) (V (Proc.devRef .tc main_arg1)) := by
  rw [keep0_2 _ main_v1 (by decide), keep0_1 _ main_v1 (by decide), read_src]

/-- The edges' target nodes before the first launch. -/
theorem tgt_before (V : Valuation τ sig (Elt Ideal)) :
    StableHlo.after hostOps0_2 (StableHlo.after hostOps0_1 (StableHlo.after hostOps0 V)) (Proc.devRef .tc main_v3)
      = val_main_v3 (F := Ideal) (V (Proc.devRef .tc main_arg1)) := by
  rw [keep0_2 _ main_v3 (by decide), keep0_1 _ main_v3 (by decide), read_tgt]

end Cert.KernelIdeal.NormStep

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibBiasRelu.lean ====
/-
  A bias row added to every row of a matrix, and the rectifier.

  A [1, C] row stretched over the N rows of an [N, C] matrix reads, at (r, c), the row's entry (0, c).  The layer's
  combine step is, entry by entry, max (agg + root + bias, 0); applying the rectifier a second time changes nothing,
  since max (max (y, z), z) = max (y, z) in any linear order.  The row count N is symbolic: the same function
  describes a block of rows and the whole array.
-/
import Idealize.ShloMosaic.PureOps.Ideal.Laws
import Idealize.ShloMosaic.Lib.ValueIdx
import Idealize.ShloMosaic.Lib.Pipeline.Value

noncomputable section

namespace Cert.Lib.BiasRelu

open Idealize.ShloMosaic Idealize.ShloMosaic.ValueIdx

variable {N : Nat}

/-- The bias row's entry (0, c) under entry (r, c) of the matrix. -/
abbrev biasIdx (i : (⟨2, ![N, 32]⟩ : Shape).Idx) : (⟨2, ![1, 32]⟩ : Shape).Idx := fun a => match a with
  | ⟨0, _⟩ => ⟨0, Nat.one_pos⟩
  | ⟨1, _⟩ => ⟨(i 1).val, (i 1).isLt⟩

/-- The combine step as a function of the index: max (agg + root + bias row, 0). -/
def combine (agg root : (⟨2, ![N, 32]⟩ : Shape).Idx → EReal) (b : (⟨2, ![1, 32]⟩ : Shape).Idx → EReal) :
    (⟨2, ![N, 32]⟩ : Shape).Idx → EReal :=
  fun i => max (agg i + root i + b (biasIdx i)) (Ideal.ofBits .f32 0x00000000#32)

/-- A [1, 32] row stretched over N rows, read at an index. -/
theorem stretch_apply (b : (⟨2, ![1, 32]⟩ : Shape).Idx → EReal) (h : (⟨2, ![1, 32]⟩ : Shape).Broadcasts ⟨2, ![N, 32]⟩)
    (i : (⟨2, ![N, 32]⟩ : Shape).Idx) : broadcastTo ⟨2, ![N, 32]⟩ b h i = b (biasIdx i) :=
  broadcastTo_apply b h i (biasIdx i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])

/-- The rectifier applied twice is the rectifier. -/
theorem relu_relu (y z : EReal) : max (max y z) z = max y z := by rw [max_assoc, max_self]

/-- The one entry of a [1, 1] array. -/
abbrev unitIdx : (⟨2, ![1, 1]⟩ : Shape).Idx := fun a => match a with
  | ⟨0, _⟩ => ⟨0, Nat.one_pos⟩
  | ⟨1, _⟩ => ⟨0, Nat.one_pos⟩

/-- A [1, 1] array stretched over an [N, 1] column, read at an index. -/
theorem stretch_unit_apply (b : (⟨2, ![1, 1]⟩ : Shape).Idx → EReal) (h : (⟨2, ![1, 1]⟩ : Shape).Broadcasts ⟨2, ![N, 1]⟩)
    (i : (⟨2, ![N, 1]⟩ : Shape).Idx) : broadcastTo ⟨2, ![N, 1]⟩ b h i = b unitIdx :=
  broadcastTo_apply b h i unitIdx (fun a => match a with
    | ⟨0, _⟩ => by show 0 = if (1 : Nat) = 1 then 0 else (i 0).val; rw [if_pos rfl]
    | ⟨1, _⟩ => by show 0 = if (1 : Nat) = 1 then 0 else (i 1).val; rw [if_pos rfl])

end Cert.Lib.BiasRelu

end
-- ==== Proof.Head.lean ====
/-
  The linear head (the last kernel launch), as a whole array.

  The launch walks twenty row blocks of 5000 rows.  At block t the body multiplies rows 5000·t … 5000·t + 4999 of the
  hidden features by the whole [32, 1] weight column (a change of float format is the identity at the ideal values),
  adds the one bias entry to every row, and writes the column to the same rows of the result.  Entry (r, 0) depends on
  row r of the features alone, so the blocks written are the row blocks of one whole-array function, and since the
  twenty blocks cover every row the result array ends as that function: the sum over k of feature (r, k) · weight
  (k, 0), plus the bias.
-/
import proofs.«123793_j56332791054868_1_alg».proof.Proof.Gen.KernelIdeal.Frame
import proofs.«123793_j56332791054868_1_alg».proof.Proof.LibPlainDot
import proofs.«123793_j56332791054868_1_alg».proof.Proof.LibBiasRelu
import Idealize.ShloMosaic.Lib.Pipeline.Value
import Idealize.ShloMosaic.Lib.ValueIdx

set_option maxRecDepth 16384

noncomputable section

namespace Cert.KernelIdeal.Head

open Cert.KernelIdeal Cert.KernelIdeal.Gen Idealize.ShloMosaic Idealize.ShloMosaic.TcCoe Idealize.SL.Sem
open Idealize.ShloMosaic.Pipeline (Dat)
open Idealize.ShloMosaic.ValueIdx
open Cert.Lib.PlainDot Cert.Lib.BiasRelu

-- the buffer contents when the launch is entered
variable (V : (c : Dev nD) → (b : Ref sig .tc) → Buf (Elt Ideal) ((c : Thread nD τ).loc b))

theorem zero_offsets : (![0, 0] : Fin 2 → Nat) = fun _ => 0 := funext fun a => by fin_cases a <;> rfl

/-- The head as a function of the index: the product with the weight column plus the one bias entry. -/
def head {N : Nat} (h : (⟨2, ![N, 32]⟩ : Shape).Idx → EReal) (w : (⟨2, ![32, 1]⟩ : Shape).Idx → EReal)
    (b : (⟨2, ![1, 1]⟩ : Shape).Idx → EReal) : (⟨2, ![N, 1]⟩ : Shape).Idx → EReal :=
  fun i => mm h w i + b unitIdx

/-- The body's result at an index of the block. -/
theorem body_apply (x : Vec Ideal S5000x32 .f32) (w : Vec Ideal S32x1 .f32) (b : Vec Ideal S1x1 .f32) (j : S5000x1.Idx) :
    k4_pay1 (F := Ideal) x w b j = head x w b j := by
  unfold k4_pay1
  simp only [shapeCast_self]
  exact congrArg₂ (fun p q : EReal => p + q)
    (matmul_zero_apply dot_S5000x32_S32x1_S5000x1_1_0_0_1_n_n rfl none x w j)
    (stretch_unit_apply b broadcasts_S1x1_S5000x1 j)

/-- The printed index maps over the twenty grid points: the features and the result move by row blocks, the weight
    column and the bias stay at their one block. -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the whole-array head. -/
theorem flushed_out (c : Dev nD) (t : Fin cfg4.N) :
    (dat4 (F := Ideal) V c).flushed 3 t
      = ((cfg4.win 3).blk t).view.read (Elt Ideal) (head (V c main_v60) (V c main_arg8) (V c main_v61)) := by
  show (cfg4.win 3).cut (grid4.coords t) ((dat4 V c).after 3 t) = _
  rw [after4_3]
  unfold out4_3
  rw [View.canon_unit_zero zero_offsets]
  simp only [View.ld_unit_zero (S := S5000x32) zero_offsets, View.ld_unit_zero (S := S32x1) zero_offsets,
    View.ld_unit_zero (S := S1x1) zero_offsets]
  obtain ⟨e00, e01, e10, e11, e20, e21, e30, e31⟩ := index_maps t
  funext j
  refine (body_apply (iblk4 V c 0 t) (iblk4 V c 1 t) (iblk4 V c 2 t) j).trans ?_
  show (∑ k : Fin 32, (show FVec Ideal S100000x32 .f32 from V c main_v60) (((cfg4.win 0).blk t).view.emb (rowIdx j k)) * (show FVec Ideal S32x1 .f32 from V c main_arg8) (((cfg4.win 1).blk t).view.emb (colIdx j k)))
        + (show FVec Ideal S1x1 .f32 from V c main_v61) (((cfg4.win 2).blk t).view.emb unitIdx)
      = (∑ k : Fin 32, (show FVec Ideal S100000x32 .f32 from V c main_v60) (rowIdx (((cfg4.win 3).blk t).view.emb j) k) * (show FVec Ideal S32x1 .f32 from V c main_arg8) (colIdx (((cfg4.win 3).blk t).view.emb j) k))
        + (show FVec Ideal S1x1 .f32 from V c main_v61) unitIdx
  have h2 : ((cfg4.win 2).blk t).view.emb unitIdx = unitIdx := by
    funext a; apply Fin.ext
    match a with
    | ⟨0, _⟩ => show win4_2.index t (0 : Fin 2) * 1 + 1 * 0 = 0; omega
    | ⟨1, _⟩ => show win4_2.index t (1 : Fin 2) * 1 + 1 * 0 = 0; omega
  rw [h2]
  refine congrArg (· + (show FVec Ideal S1x1 .f32 from V c main_v61) unitIdx) (Finset.sum_congr rfl fun k _ => ?_)
  have h0 : ((cfg4.win 0).blk t).view.emb (rowIdx j k) = rowIdx (((cfg4.win 3).blk t).view.emb j) k := by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 32 + 1 * k.val = k.val; omega
  have h1 : ((cfg4.win 1).blk t).view.emb (colIdx j k) = colIdx (((cfg4.win 3).blk t).view.emb j) k := by
    funext a; apply Fin.ext
    match a with
    | ⟨0, _⟩ => show win4_1.index t (0 : Fin 2) * 32 + 1 * k.val = k.val; omega
    | ⟨1, _⟩ => show win4_1.index t (1 : Fin 2) * 1 + 1 * (j 1).val = win4_3.index t (1 : Fin 2) * 1 + 1 * (j 1).val; omega
  rw [h0, h1]

/-- An index of the result array lies in point t's block iff each coordinate lies in the block's range. -/
theorem mem_block (t : Fin cfg4.N) (i : S100000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v62).slice (win4_3.rect t)).set ↔ _
  rw [View.set_slice_whole, Rect.mem_set_unit]
  exact Iff.rfl

/-- Row r lies in block r / 5000: the twenty blocks cover the result array. -/
theorem cover (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  have hN : cfg4.N = 20 := N_4
  refine ⟨⟨(i 0).val / 5000, by rw [hN]; omega⟩, flush4_3 _, ?_⟩
  rw [mem_block]
  obtain ⟨e00, e01, e10, e11, e20, e21, e30, e31⟩ := index_maps ⟨(i 0).val / 5000, by rw [hN]; omega⟩
  intro a
  match a with
  | ⟨0, _⟩ => show win4_3.index _ (0 : Fin 2) * 5000 ≤ (i 0).val ∧ (i 0).val < win4_3.index _ (0 : Fin 2) * 5000 + 5000; rw [e30]; show (i 0).val / 5000 * 5000 ≤ (i 0).val ∧ (i 0).val < (i 0).val / 5000 * 5000 + 5000; omega
  | ⟨1, _⟩ => show win4_3.index _ (1 : Fin 2) * 1 ≤ (i 1).val ∧ (i 1).val < win4_3.index _ (1 : Fin 2) * 1 + 1; rw [e31]; omega

/-- After the launch the result array is the whole-array head. -/
theorem array_out (c : Dev nD) :
    (dat4 (F := Ideal) V c).arrAt 3 cfg4.N = head (V c main_v60) (V c main_arg8) (V c main_v61) :=
  (dat4 V c).arrAt_eq_of_cover 3 (head (V c main_v60) (V c main_arg8) (V c main_v61)) (fun t _ => flushed_out V c t) cover

end Cert.KernelIdeal.Head

end
-- ==== Proof.StageMatch.lean ====
/-
  The kernel's whole-array functions are the reference's stages.

  The reference computes, layer by layer: the projection x·W_init, the messages gathered along the edges, scaled
  by the normalisation coefficient and summed at their target nodes, plus the root projection x·W_root and the
  bias, rectified twice; then the linear head.  The kernel's launches leave the same functions of the same arrays:
  a projection is the plain sum over the contracted axis on both sides; the aggregation applies the same host
  operations to equal operands; the combine step differs from the reference only in that the reference takes the
  maximum with zero twice (max (max (y, 0), 0) = max (y, 0)) and spells the bias row's view as a broadcast rather
  than a reshape (both read entry c of the vector at (0, c)).
-/
import proofs.«123793_j56332791054868_1_alg».proof.Proof.RefReadPatched
import proofs.«123793_j56332791054868_1_alg».proof.Proof.HostSteps
import proofs.«123793_j56332791054868_1_alg».proof.Proof.Head
import proofs.«123793_j56332791054868_1_alg».proof.Proof.LibPlainDot
import proofs.«123793_j56332791054868_1_alg».proof.Proof.LibBiasRelu
import Idealize.ShloMosaic.Lib.ValueLayout

set_option maxRecDepth 16384

noncomputable section

namespace Cert.StageMatch

open Cert.ReferenceIdeal Cert.ReferenceIdeal.ReadP Idealize.ShloMosaic Idealize.ShloMosaic.ValueIdx
open Cert.Lib.PlainDot Cert.Lib.BiasRelu

variable (x0 : (⟨S100000x128, .f32⟩ : BufTy).Contents (Elt Ideal)) (x1 : (⟨S2x1600000, .i32⟩ : BufTy).Contents (Elt Ideal))
  (x2 x3 : (⟨S128x32, .f32⟩ : BufTy).Contents (Elt Ideal)) (x4 : (⟨S32, .f32⟩ : BufTy).Contents (Elt Ideal))
  (x5 x6 : (⟨S32x32, .f32⟩ : BufTy).Contents (Elt Ideal)) (x7 : (⟨S32, .f32⟩ : BufTy).Contents (Elt Ideal))
  (x8 : (⟨S32x1, .f32⟩ : BufTy).Contents (Elt Ideal)) (x9 : (⟨S1, .f32⟩ : BufTy).Contents (Elt Ideal))

/-! ## The projections: one sum over the contracted axis, two spellings of its operand indices -/

theorem proj1 : mm (R := 100000) (K := 128) (C := 32) x0 x2 = val_main_v33 (F := Ideal) x0 x2 := by
  funext i
  rw [val_main_v33_apply]
  unfold mm
  refine Finset.sum_congr rfl fun k _ => ?_
  have el : rowIdx (R := 100000) (K := 128) (C := 32) i k = lidx_main_v33 i k := funext fun a => by match a with | ⟨0, _⟩ => rfl | ⟨1, _⟩ => rfl
  have er : colIdx (R := 100000) (K := 128) (C := 32) i k = ridx_main_v33 i k := funext fun a => by match a with | ⟨0, _⟩ => rfl | ⟨1, _⟩ => rfl
  rw [el, er]

theorem root1 : mm (R := 100000) (K := 128) (C := 32) x0 x3 = val_main_v47 (F := Ideal) x0 x3 := by
  funext i
  rw [val_main_v47_apply]
  unfold mm
  refine Finset.sum_congr rfl fun k _ => ?_
  have el : rowIdx (R := 100000) (K := 128) (C := 32) i k = lidx_main_v47 i k := funext fun a => by match a with | ⟨0, _⟩ => rfl | ⟨1, _⟩ => rfl
  have er : colIdx (R := 100000) (K := 128) (C := 32) i k = ridx_main_v47 i k := funext fun a => by match a with | ⟨0, _⟩ => rfl | ⟨1, _⟩ => rfl
  rw [el, er]

theorem proj2 : mm (R := 100000) (K := 32) (C := 32) (val_main_v53 (F := Ideal) x0 x1 x2 x3 x4) x5 = val_main_v58 (F := Ideal) x0 x1 x2 x3 x4 x5 := by
  funext i
  rw [val_main_v58_apply]
  unfold mm
  refine Finset.sum_congr rfl fun k _ => ?_
  have el : rowIdx (R := 100000) (K := 32) (C := 32) i k = lidx_main_v58 i k := funext fun a => by match a with | ⟨0, _⟩ => rfl | ⟨1, _⟩ => rfl
  have er : colIdx (R := 100000) (K := 32) (C := 32) i k = ridx_main_v58 i k := funext fun a => by match a with | ⟨0, _⟩ => rfl | ⟨1, _⟩ => rfl
  rw [el, er]

theorem root2 : mm (R := 100000) (K := 32) (C := 32) (val_main_v53 (F := Ideal) x0 x1 x2 x3 x4) x6 = val_main_v72 (F := Ideal) x0 x1 x2 x3 x4 x6 := by
  funext i
  rw [val_main_v72_apply]
  unfold mm
  refine Finset.sum_congr rfl fun k _ => ?_
  have el : rowIdx (R := 100000) (K := 32) (C := 32) i k = lidx_main_v72 i k := funext fun a => by match a with | ⟨0, _⟩ => rfl | ⟨1, _⟩ => rfl
  have er : colIdx (R := 100000) (K := 32) (C := 32) i k = ridx_main_v72 i k := funext fun a => by match a with | ⟨0, _⟩ => rfl | ⟨1, _⟩ => rfl
  rw [el, er]

/-! ## The aggregation: the same host operations on both sides -/

theorem agg1 :
    Cert.KernelIdeal.HostSteps.aggregate (val_main_v28 (F := Ideal) x1) (val_main_v1 (F := Ideal) x1) (val_main_v3 (F := Ideal) x1)
        (val_main_v33 (F := Ideal) x0 x2)
      = val_main_v46 (F := Ideal) x0 x1 x2 := rfl

theorem agg2 :
    Cert.KernelIdeal.HostSteps.aggregate (val_main_v28 (F := Ideal) x1) (val_main_v1 (F := Ideal) x1) (val_main_v3 (F := Ideal) x1)
        (val_main_v58 (F := Ideal) x0 x1 x2 x3 x4 x5)
      = val_main_v71 (F := Ideal) x0 x1 x2 x3 x4 x5 := rfl

/-! ## The combine steps -/

/-- A vector viewed as one row, read under entry (r, c) of a matrix, is entry c of the vector. -/
theorem bias_row (b : (⟨S32, .f32⟩ : BufTy).Contents (Elt Ideal)) (h : Cert.KernelIdeal.S32.ShapeCasts Cert.KernelIdeal.S1x32)
    (i : S100000x32.Idx) (k : S32.Idx) (hk : k = ix1 (⟨(i 1).val, (i 1).isLt⟩ : Fin 32)) :
    shapeCast Cert.KernelIdeal.S1x32 b h (biasIdx i) = b k := by
  have e1 : biasIdx (N := 100000) i = ix2 (⟨0, Nat.one_pos⟩ : Fin 1) (⟨(i 1).val, (i 1).isLt⟩ : Fin 32) := funext fun a => by match a with | ⟨0, _⟩ => rfl | ⟨1, _⟩ => rfl
  rw [e1, hk]
  exact shapeCast_a_1a_apply b h _ _

theorem layer1 (h : Cert.KernelIdeal.S32.ShapeCasts Cert.KernelIdeal.S1x32) :
    combine (N := 100000) (val_main_v46 (F := Ideal) x0 x1 x2) (val_main_v47 (F := Ideal) x0 x3) (shapeCast Cert.KernelIdeal.S1x32 x4 h)
      = val_main_v53 (F := Ideal) x0 x1 x2 x3 x4 := by
  funext i
  have hR : val_main_v53 (F := Ideal) x0 x1 x2 x3 x4 i
      = max (max (val_main_v46 (F := Ideal) x0 x1 x2 i + val_main_v47 (F := Ideal) x0 x3 i + x4 (idx_main_v49 (idx_main_v50 i)))
          (Ideal.ofBits .f32 0x00000000#32)) (Ideal.ofBits .f32 0x00000000#32) := by
    rw [val_main_v53_apply, val_main_v52_apply, val_main_v51_apply, val_main_v48_apply, val_main_v50_apply, val_main_v49_apply,
      val_main_call2_v0_apply, val_main_call1_v0_apply, val_main_call2_cst_apply, val_main_call1_cst_apply]
    rfl
  rw [hR, relu_relu]
  show max (val_main_v46 (F := Ideal) x0 x1 x2 i + val_main_v47 (F := Ideal) x0 x3 i + shapeCast Cert.KernelIdeal.S1x32 x4 h (biasIdx i))
      (Ideal.ofBits .f32 0x00000000#32) = _
  rw [bias_row x4 h i (idx_main_v49 (idx_main_v50 i)) (funext fun a => by match a with | ⟨0, _⟩ => rfl)]

theorem layer2 (h : Cert.KernelIdeal.S32.ShapeCasts Cert.KernelIdeal.S1x32) :
    combine (N := 100000) (val_main_v71 (F := Ideal) x0 x1 x2 x3 x4 x5) (val_main_v72 (F := Ideal) x0 x1 x2 x3 x4 x6) (shapeCast Cert.KernelIdeal.S1x32 x7 h)
      = val_main_v78 (F := Ideal) x0 x1 x2 x3 x4 x5 x6 x7 := by
  funext i
  have hR : val_main_v78 (F := Ideal) x0 x1 x2 x3 x4 x5 x6 x7 i
      = max (max (val_main_v71 (F := Ideal) x0 x1 x2 x3 x4 x5 i + val_main_v72 (F := Ideal) x0 x1 x2 x3 x4 x6 i + x7 (idx_main_v74 (idx_main_v75 i)))
          (Ideal.ofBits .f32 0x00000000#32)) (Ideal.ofBits .f32 0x00000000#32) := by
    rw [val_main_v78_apply, val_main_v77_apply, val_main_v76_apply, val_main_v73_apply, val_main_v75_apply, val_main_v74_apply,
      val_main_call4_v0_apply, val_main_call3_v0_apply, val_main_call4_cst_apply, val_main_call3_cst_apply]
    rfl
  rw [hR, relu_relu]
  show max (val_main_v71 (F := Ideal) x0 x1 x2 x3 x4 x5 i + val_main_v72 (F := Ideal) x0 x1 x2 x3 x4 x6 i + shapeCast Cert.KernelIdeal.S1x32 x7 h (biasIdx i))
      (Ideal.ofBits .f32 0x00000000#32) = _
  rw [bias_row x7 h i (idx_main_v74 (idx_main_v75 i)) (funext fun a => by match a with | ⟨0, _⟩ => rfl)]

/-! ## The head -/

theorem out (h : Cert.KernelIdeal.S1.ShapeCasts Cert.KernelIdeal.S1x1) :
    Cert.KernelIdeal.Head.head (N := 100000) (val_main_v78 (F := Ideal) x0 x1 x2 x3 x4 x5 x6 x7) x8 (shapeCast Cert.KernelIdeal.S1x1 x9 h)
      = val_main_v82 (F := Ideal) x0 x1 x2 x3 x4 x5 x6 x7 x8 x9 := by
  funext i
  have hR : val_main_v82 (F := Ideal) x0 x1 x2 x3 x4 x5 x6 x7 x8 x9 i
      = (∑ k : Fin 32, val_main_v78 (F := Ideal) x0 x1 x2 x3 x4 x5 x6 x7 (lidx_main_v79 i k) * x8 (ridx_main_v79 i k))
        + x9 (idx_main_v80 (idx_main_v81 i)) := by
    rw [val_main_v82_apply, val_main_v79_apply, val_main_v81_apply, val_main_v80_apply]
    rfl
  rw [hR]
  show (∑ k : Fin 32, val_main_v78 (F := Ideal) x0 x1 x2 x3 x4 x5 x6 x7 (rowIdx (R := 100000) (K := 32) (C := 1) i k) * x8 (colIdx (R := 100000) (K := 32) (C := 1) i k))
      + shapeCast Cert.KernelIdeal.S1x1 x9 h unitIdx = _
  have e1 : unitIdx = ix2 (⟨0, Nat.one_pos⟩ : Fin 1) (⟨0, Nat.one_pos⟩ : Fin 1) := funext fun a => by match a with | ⟨0, _⟩ => rfl | ⟨1, _⟩ => rfl
  have e2 : idx_main_v80 (idx_main_v81 i) = ix1 (⟨0, Nat.one_pos⟩ : Fin 1) := funext fun a => by match a with | ⟨0, _⟩ => rfl
  rw [e1, e2, shapeCast_a_1a_apply x9 h _ _]
  refine congrArg (· + x9 (ix1 (⟨0, Nat.one_pos⟩ : Fin 1))) (Finset.sum_congr rfl fun k _ => ?_)
  have el : rowIdx (R := 100000) (K := 32) (C := 1) i k = lidx_main_v79 i k := funext fun a => by match a with | ⟨0, _⟩ => rfl | ⟨1, _⟩ => rfl
  have er : colIdx (R := 100000) (K := 32) (C := 1) i k = ridx_main_v79 i k := funext fun a => by match a with | ⟨0, _⟩ => rfl | ⟨1, _⟩ => rfl
  rw [el, er]

end Cert.StageMatch

end
-- ==== Proof.Linear1.lean ====
/-
  The first layer's two projections (the first kernel launch), as whole arrays.

  The launch walks twenty row blocks of 5000 rows.  At block t the body multiplies rows 5000·t … 5000·t + 4999 of
  the left array by each of the two whole weight matrices (a change of float format is the identity at the ideal
  values) and writes the two products to the same rows of its two output arrays.  Entry (r, c) of a product
  depends on row r of the left array alone, so the blocks written are the row blocks of the whole products, and
  since the twenty blocks cover every row each output array ends as the whole product: entry (r, c) is the sum
  over k of left (r, k) · weight (k, c).
-/
import proofs.«123793_j56332791054868_1_alg».proof.Proof.Gen.KernelIdeal.Frame
import proofs.«123793_j56332791054868_1_alg».proof.Proof.LibPlainDot
import Idealize.ShloMosaic.Lib.Pipeline.Value
import Idealize.ShloMosaic.Lib.ValueIdx

set_option maxRecDepth 16384

noncomputable section

namespace Cert.KernelIdeal.Linear1

open Cert.KernelIdeal Cert.KernelIdeal.Gen Idealize.ShloMosaic Idealize.ShloMosaic.TcCoe Idealize.SL.Sem
open Idealize.ShloMosaic.Pipeline (Dat)
open Idealize.ShloMosaic.ValueIdx
open Cert.Lib.PlainDot

-- the buffer contents when the launch is entered
variable (V : (c : Dev nD) → (b : Ref sig .tc) → Buf (Elt Ideal) ((c : Thread nD τ).loc b))

theorem zero_offsets : (![0, 0] : Fin 2 → Nat) = fun _ => 0 := funext fun a => by fin_cases a <;> rfl

/-- The body's first product, at an index of the block: the plain sum over the contracted axis. -/
theorem first_apply (x : Vec Ideal S5000x128 .f32) (w : Vec Ideal S128x32 .f32) (j : S5000x32.Idx) :
    k0_pay2 (F := Ideal) x w j = mm x w j := by
  unfold k0_pay2 k0_pay1
  exact matmul_zero_apply dot_S5000x128_S128x32_S5000x32_1_0_0_1_n_n rfl none _ _ j

/-- The body's second product, at an index of the block. -/
theorem second_apply (x : Vec Ideal S5000x128 .f32) (w : Vec Ideal S128x32 .f32) (j : S5000x32.Idx) :
    k0_pay3 (F := Ideal) x w j = mm x w j := by
  unfold k0_pay3 k0_pay1
  exact matmul_zero_apply dot_S5000x128_S128x32_S5000x32_1_0_0_1_n_n rfl none _ _ j

/-- The printed index maps over the twenty grid points: the left array and both outputs move by row blocks, the
    weights stay at their one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back to the first output is block t of the whole product. -/
theorem flushed_first (c : Dev nD) (t : Fin cfg0.N) :
    (dat0 (F := Ideal) V c).flushed 3 t
      = ((cfg0.win 3).blk t).view.read (Elt Ideal) (mm (V c main_arg0) (V c main_arg2)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x32) zero_offsets]
  obtain ⟨e00, e01, e10, e11, e20, e21, e30, e31, e40, e41⟩ := index_maps t
  funext j
  refine (first_apply (iblk0 V c 0 t) (iblk0 V c 1 t) j).trans ?_
  show (∑ k : Fin 128, (show FVec Ideal S100000x128 .f32 from V c main_arg0) (((cfg0.win 0).blk t).view.emb (rowIdx j k)) * (show FVec Ideal S128x32 .f32 from V c main_arg2) (((cfg0.win 1).blk t).view.emb (colIdx j k)))
      = ∑ k : Fin 128, (show FVec Ideal S100000x128 .f32 from V c main_arg0) (rowIdx (((cfg0.win 3).blk t).view.emb j) k) * (show FVec Ideal S128x32 .f32 from V c main_arg2) (colIdx (((cfg0.win 3).blk t).view.emb j) k)
  refine Finset.sum_congr rfl fun k _ => ?_
  have h0 : ((cfg0.win 0).blk t).view.emb (rowIdx j k) = rowIdx (((cfg0.win 3).blk t).view.emb j) k := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ((cfg0.win 1).blk t).view.emb (colIdx j k) = colIdx (((cfg0.win 3).blk t).view.emb j) k := by
    funext a; apply Fin.ext
    match a with
    | ⟨0, _⟩ => show win0_1.index t (0 : Fin 2) * 128 + 1 * k.val = k.val; omega
    | ⟨1, _⟩ => show win0_1.index t (1 : Fin 2) * 32 + 1 * (j 1).val = win0_3.index t (1 : Fin 2) * 32 + 1 * (j 1).val; omega
  rw [h0, h1]

/-- What point t writes back to the second output is block t of the whole product with the second weights. -/
theorem flushed_second (c : Dev nD) (t : Fin cfg0.N) :
    (dat0 (F := Ideal) V c).flushed 4 t
      = ((cfg0.win 4).blk t).view.read (Elt Ideal) (mm (V c main_arg0) (V c main_arg3)) := by
  show (cfg0.win 4).cut (grid0.coords t) ((dat0 V c).after 4 t) = _
  rw [after0_4]
  unfold out0_4
  rw [View.canon_unit_zero zero_offsets]
  simp only [View.ld_unit_zero (S := S5000x128) zero_offsets, View.ld_unit_zero (S := S128x32) zero_offsets]
  obtain ⟨e00, e01, e10, e11, e20, e21, e30, e31, e40, e41⟩ := index_maps t
  funext j
  refine (second_apply (iblk0 V c 0 t) (iblk0 V c 2 t) j).trans ?_
  show (∑ k : Fin 128, (show FVec Ideal S100000x128 .f32 from V c main_arg0) (((cfg0.win 0).blk t).view.emb (rowIdx j k)) * (show FVec Ideal S128x32 .f32 from V c main_arg3) (((cfg0.win 2).blk t).view.emb (colIdx j k)))
      = ∑ k : Fin 128, (show FVec Ideal S100000x128 .f32 from V c main_arg0) (rowIdx (((cfg0.win 4).blk t).view.emb j) k) * (show FVec Ideal S128x32 .f32 from V c main_arg3) (colIdx (((cfg0.win 4).blk t).view.emb j) k)
  refine Finset.sum_congr rfl fun k _ => ?_
  have h0 : ((cfg0.win 0).blk t).view.emb (rowIdx j k) = rowIdx (((cfg0.win 4).blk t).view.emb j) k := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  have h2 : ((cfg0.win 2).blk t).view.emb (colIdx j k) = colIdx (((cfg0.win 4).blk t).view.emb j) k := by
    funext a; apply Fin.ext
    match a with
    | ⟨0, _⟩ => show win0_2.index t (0 : Fin 2) * 128 + 1 * k.val = k.val; omega
    | ⟨1, _⟩ => show win0_2.index t (1 : Fin 2) * 32 + 1 * (j 1).val = win0_4.index t (1 : Fin 2) * 32 + 1 * (j 1).val; omega
  rw [h0, h2]

/-- An index of the first output array lies in point t's block iff each coordinate lies in the block's range. -/
theorem mem_block_first (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v29_0).slice (win0_3.rect t)).set ↔ _
  rw [View.set_slice_whole, Rect.mem_set_unit]
  exact Iff.rfl

theorem mem_block_second (t : Fin cfg0.N) (i : S100000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v29_1).slice (win0_4.rect t)).set ↔ _
  rw [View.set_slice_whole, Rect.mem_set_unit]
  exact Iff.rfl

/-- Row r lies in block r / 5000: the twenty blocks cover the first output array. -/
theorem cover_first (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_3 _, ?_⟩
  rw [mem_block_first]
  obtain ⟨e00, e01, e10, e11, e20, e21, e30, e31, e40, e41⟩ := index_maps ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
  | ⟨1, _⟩ => show win0_3.index _ (1 : Fin 2) * 32 ≤ (i 1).val ∧ (i 1).val < win0_3.index _ (1 : Fin 2) * 32 + 32; rw [e31]; omega

theorem cover_second (i : S100000x32.Idx) :
    ∃ t : Fin cfg0.N, (cfg0.win 4).flush t = true ∧ i ∈ ((cfg0.win 4).blk t).view.set := by
  have hi0 : (i 0).val < 100000 := (i 0).isLt
  have hi1 : (i 1).val < 32 := (i 1).isLt
  have hN : cfg0.N = 20 := N_0
  refine ⟨⟨(i 0).val / 5000, by rw [hN]; omega⟩, flush0_4 _, ?_⟩
  rw [mem_block_second]
  obtain ⟨e00, e01, e10, e11, e20, e21, e30, e31, e40, e41⟩ := index_maps ⟨(i 0).val / 5000, by rw [hN]; omega⟩
  intro a
  match a with
  | ⟨0, _⟩ => show win0_4.index _ (0 : Fin 2) * 5000 ≤ (i 0).val ∧ (i 0).val < win0_4.index _ (0 : Fin 2) * 5000 + 5000; rw [e40]; show (i 0).val / 5000 * 5000 ≤ (i 0).val ∧ (i 0).val < (i 0).val / 5000 * 5000 + 5000; omega
  | ⟨1, _⟩ => show win0_4.index _ (1 : Fin 2) * 32 ≤ (i 1).val ∧ (i 1).val < win0_4.index _ (1 : Fin 2) * 32 + 32; rw [e41]; omega

/-- After the launch the first output array is the whole product with the first weights. -/
theorem array_first (c : Dev nD) :
    (dat0 (F := Ideal) V c).arrAt 3 cfg0.N = mm (V c main_arg0) (V c main_arg2) :=
  (dat0 V c).arrAt_eq_of_cover 3 (mm (V c main_arg0) (V c main_arg2)) (fun t _ => flushed_first V c t) cover_first

/-- After the launch the second output array is the whole product with the second weights. -/
theorem array_second (c : Dev nD) :
    (dat0 (F := Ideal) V c).arrAt 4 cfg0.N = mm (V c main_arg0) (V c main_arg3) :=
  (dat0 V c).arrAt_eq_of_cover 4 (mm (V c main_arg0) (V c main_arg3)) (fun t _ => flushed_second V c t) cover_second

end Cert.KernelIdeal.Linear1

end
-- ==== Proof.Combine1.lean ====
/-
  The first layer's combine step (the second kernel launch), as a whole array.

  The launch walks twenty row blocks of 5000 rows.  At block t the body adds rows 5000·t … 5000·t + 4999 of the
  aggregated messages and of the root projection, adds the bias row to every row, and takes the maximum with zero;
  it writes the result to the same rows of its output array.  Entry (r, c) of the result depends on entry (r, c)
  of the two inputs and entry (0, c) of the bias row alone, so the blocks written are the row blocks of one
  whole-array function, and since the twenty blocks cover every row the output array ends as that function.
-/
import proofs.«123793_j56332791054868_1_alg».proof.Proof.Gen.KernelIdeal.Frame
import proofs.«123793_j56332791054868_1_alg».proof.Proof.LibBiasRelu
import Idealize.ShloMosaic.Lib.Pipeline.Value
import Idealize.ShloMosaic.Lib.ValueIdx

set_option maxRecDepth 16384

noncomputable section

namespace Cert.KernelIdeal.Combine1

open Cert.KernelIdeal Cert.KernelIdeal.Gen Idealize.ShloMosaic Idealize.ShloMosaic.TcCoe Idealize.SL.Sem
open Idealize.ShloMosaic.Pipeline (Dat)
open Idealize.ShloMosaic.ValueIdx
open Cert.Lib.BiasRelu

-- the buffer contents when the launch is entered
variable (V : (c : Dev nD) → (b : Ref sig .tc) → Buf (Elt Ideal) ((c : Thread nD τ).loc b))

theorem zero_offsets : (![0, 0] : Fin 2 → Nat) = fun _ => 0 := funext fun a => by fin_cases a <;> rfl

/-- The body's result at an index of the block. -/
theorem body_apply (b : Vec Ideal S1x32 .f32) (x0 x1 : Vec Ideal S5000x32 .f32) (j : S5000x32.Idx) :
    k1_pay1 (F := Ideal) b x0 x1 j = combine x0 x1 b j := by
  unfold k1_pay1
  simp only [shapeCast_self]
  show max (x0 j + x1 j + broadcastTo S5000x32 b broadcasts_S1x32_S5000x32 j) (Ideal.ofBits .f32 0x00000000#32) = _
  rw [stretch_apply]
  rfl

/-- The printed index maps over the twenty grid points: the two inputs and the output move by row blocks, the bias
    row stays at its one block. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array combine. -/
theorem flushed_out (c : Dev nD) (t : Fin cfg1.N) :
    (dat1 (F := Ideal) V c).flushed 3 t
      = ((cfg1.win 3).blk t).view.read (Elt Ideal) (combine (V c main_v42) (V c main_v29_1) (V c main_v43)) := by
  show (cfg1.win 3).cut (grid1.coords t) ((dat1 V c).after 3 t) = _
  rw [after1_3]
  unfold out1_3
  rw [View.canon_unit_zero zero_offsets]
  simp only [View.ld_unit_zero (S := S5000x32) zero_offsets, View.ld_unit_zero (S := S1x32) zero_offsets]
  obtain ⟨e00, e01, e10, e11, e20, e21, e30, e31⟩ := index_maps t
  funext j
  refine (body_apply (iblk1 V c 2 t) (iblk1 V c 0 t) (iblk1 V c 1 t) j).trans ?_
  show max ((show FVec Ideal S100000x32 .f32 from V c main_v42) (((cfg1.win 0).blk t).view.emb j) + (show FVec Ideal S100000x32 .f32 from V c main_v29_1) (((cfg1.win 1).blk t).view.emb j)
        + (show FVec Ideal S1x32 .f32 from V c main_v43) (((cfg1.win 2).blk t).view.emb (biasIdx j))) (Ideal.ofBits .f32 0x00000000#32)
      = max ((show FVec Ideal S100000x32 .f32 from V c main_v42) (((cfg1.win 3).blk t).view.emb j) + (show FVec Ideal S100000x32 .f32 from V c main_v29_1) (((cfg1.win 3).blk t).view.emb j)
        + (show FVec Ideal S1x32 .f32 from V c main_v43) (biasIdx (((cfg1.win 3).blk t).view.emb j))) (Ideal.ofBits .f32 0x00000000#32)
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 32 + 1 * (j 1).val = win1_3.index t (1 : Fin 2) * 32 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 32 + 1 * (j 1).val = win1_3.index t (1 : Fin 2) * 32 + 1 * (j 1).val; omega
  have h2 : ((cfg1.win 2).blk t).view.emb (biasIdx j) = biasIdx (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 32 + 1 * (j 1).val = win1_3.index t (1 : Fin 2) * 32 + 1 * (j 1).val; omega
  rw [h0, h1, h2]

/-- An index of the output array lies in point t's block iff each coordinate lies in the block's range. -/
theorem mem_block (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v44).slice (win1_3.rect t)).set ↔ _
  rw [View.set_slice_whole, Rect.mem_set_unit]
  exact Iff.rfl

/-- Row r lies in block r / 5000: the twenty blocks cover the output array. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  refine ⟨⟨(i 0).val / 5000, by rw [hN]; omega⟩, flush1_3 _, ?_⟩
  rw [mem_block]
  obtain ⟨e00, e01, e10, e11, e20, e21, e30, e31⟩ := index_maps ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e30]; show (i 0).val / 5000 * 5000 ≤ (i 0).val ∧ (i 0).val < (i 0).val / 5000 * 5000 + 5000; omega
  | ⟨1, _⟩ => show win1_3.index _ (1 : Fin 2) * 32 ≤ (i 1).val ∧ (i 1).val < win1_3.index _ (1 : Fin 2) * 32 + 32; rw [e31]; omega

/-- After the launch the output array is the whole-array combine of the three inputs. -/
theorem array_out (c : Dev nD) :
    (dat1 (F := Ideal) V c).arrAt 3 cfg1.N = combine (V c main_v42) (V c main_v29_1) (V c main_v43) :=
  (dat1 V c).arrAt_eq_of_cover 3 (combine (V c main_v42) (V c main_v29_1) (V c main_v43)) (fun t _ => flushed_out V c t) cover

end Cert.KernelIdeal.Combine1

end
-- ==== Proof.Linear2.lean ====
/-
  The second layer's two projections (the third kernel launch), as whole arrays.

  The launch walks twenty row blocks of 5000 rows.  At block t the body multiplies rows 5000·t … 5000·t + 4999 of
  the left array by each of the two whole weight matrices (a change of float format is the identity at the ideal
  values) and writes the two products to the same rows of its two output arrays.  Entry (r, c) of a product
  depends on row r of the left array alone, so the blocks written are the row blocks of the whole products, and
  since the twenty blocks cover every row each output array ends as the whole product: entry (r, c) is the sum
  over k of left (r, k) · weight (k, c).
-/
import proofs.«123793_j56332791054868_1_alg».proof.Proof.Gen.KernelIdeal.Frame
import proofs.«123793_j56332791054868_1_alg».proof.Proof.LibPlainDot
import Idealize.ShloMosaic.Lib.Pipeline.Value
import Idealize.ShloMosaic.Lib.ValueIdx

set_option maxRecDepth 16384

noncomputable section

namespace Cert.KernelIdeal.Linear2

open Cert.KernelIdeal Cert.KernelIdeal.Gen Idealize.ShloMosaic Idealize.ShloMosaic.TcCoe Idealize.SL.Sem
open Idealize.ShloMosaic.Pipeline (Dat)
open Idealize.ShloMosaic.ValueIdx
open Cert.Lib.PlainDot

-- the buffer contents when the launch is entered
variable (V : (c : Dev nD) → (b : Ref sig .tc) → Buf (Elt Ideal) ((c : Thread nD τ).loc b))

theorem zero_offsets : (![0, 0] : Fin 2 → Nat) = fun _ => 0 := funext fun a => by fin_cases a <;> rfl

/-- The body's first product, at an index of the block: the plain sum over the contracted axis. -/
theorem first_apply (x : Vec Ideal S5000x32 .f32) (w : Vec Ideal S32x32 .f32) (j : S5000x32.Idx) :
    k2_pay2 (F := Ideal) x w j = mm x w j := by
  unfold k2_pay2 k2_pay1
  simp only [shapeCast_self]
  exact matmul_zero_apply dot_S5000x32_S32x32_S5000x32_1_0_0_1_n_n rfl none _ _ j

/-- The body's second product, at an index of the block. -/
theorem second_apply (x : Vec Ideal S5000x32 .f32) (w : Vec Ideal S32x32 .f32) (j : S5000x32.Idx) :
    k2_pay3 (F := Ideal) x w j = mm x w j := by
  unfold k2_pay3 k2_pay1
  simp only [shapeCast_self]
  exact matmul_zero_apply dot_S5000x32_S32x32_S5000x32_1_0_0_1_n_n rfl none _ _ j

/-- The printed index maps over the twenty grid points: the left array and both outputs move by row blocks, the
    weights stay at their one block. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point t writes back to the first output is block t of the whole product. -/
theorem flushed_first (c : Dev nD) (t : Fin cfg2.N) :
    (dat2 (F := Ideal) V c).flushed 3 t
      = ((cfg2.win 3).blk t).view.read (Elt Ideal) (mm (V c main_v44) (V c main_arg5)) := by
  show (cfg2.win 3).cut (grid2.coords t) ((dat2 V c).after 3 t) = _
  rw [after2_3]
  unfold out2_3
  rw [View.canon_unit_zero zero_offsets]
  simp only [View.ld_unit_zero (S := S5000x32) zero_offsets, View.ld_unit_zero (S := S32x32) zero_offsets]
  obtain ⟨e00, e01, e10, e11, e20, e21, e30, e31, e40, e41⟩ := index_maps t
  funext j
  refine (first_apply (iblk2 V c 0 t) (iblk2 V c 1 t) j).trans ?_
  show (∑ k : Fin 32, (show FVec Ideal S100000x32 .f32 from V c main_v44) (((cfg2.win 0).blk t).view.emb (rowIdx j k)) * (show FVec Ideal S32x32 .f32 from V c main_arg5) (((cfg2.win 1).blk t).view.emb (colIdx j k)))
      = ∑ k : Fin 32, (show FVec Ideal S100000x32 .f32 from V c main_v44) (rowIdx (((cfg2.win 3).blk t).view.emb j) k) * (show FVec Ideal S32x32 .f32 from V c main_arg5) (colIdx (((cfg2.win 3).blk t).view.emb j) k)
  refine Finset.sum_congr rfl fun k _ => ?_
  have h0 : ((cfg2.win 0).blk t).view.emb (rowIdx j k) = rowIdx (((cfg2.win 3).blk t).view.emb j) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 32 + 1 * k.val = k.val; omega
  have h1 : ((cfg2.win 1).blk t).view.emb (colIdx j k) = colIdx (((cfg2.win 3).blk t).view.emb j) k := by
    funext a; apply Fin.ext
    match a with
    | ⟨0, _⟩ => show win2_1.index t (0 : Fin 2) * 32 + 1 * k.val = k.val; omega
    | ⟨1, _⟩ => show win2_1.index t (1 : Fin 2) * 32 + 1 * (j 1).val = win2_3.index t (1 : Fin 2) * 32 + 1 * (j 1).val; omega
  rw [h0, h1]

/-- What point t writes back to the second output is block t of the whole product with the second weights. -/
theorem flushed_second (c : Dev nD) (t : Fin cfg2.N) :
    (dat2 (F := Ideal) V c).flushed 4 t
      = ((cfg2.win 4).blk t).view.read (Elt Ideal) (mm (V c main_v44) (V c main_arg6)) := by
  show (cfg2.win 4).cut (grid2.coords t) ((dat2 V c).after 4 t) = _
  rw [after2_4]
  unfold out2_4
  rw [View.canon_unit_zero zero_offsets]
  simp only [View.ld_unit_zero (S := S5000x32) zero_offsets, View.ld_unit_zero (S := S32x32) zero_offsets]
  obtain ⟨e00, e01, e10, e11, e20, e21, e30, e31, e40, e41⟩ := index_maps t
  funext j
  refine (second_apply (iblk2 V c 0 t) (iblk2 V c 2 t) j).trans ?_
  show (∑ k : Fin 32, (show FVec Ideal S100000x32 .f32 from V c main_v44) (((cfg2.win 0).blk t).view.emb (rowIdx j k)) * (show FVec Ideal S32x32 .f32 from V c main_arg6) (((cfg2.win 2).blk t).view.emb (colIdx j k)))
      = ∑ k : Fin 32, (show FVec Ideal S100000x32 .f32 from V c main_v44) (rowIdx (((cfg2.win 4).blk t).view.emb j) k) * (show FVec Ideal S32x32 .f32 from V c main_arg6) (colIdx (((cfg2.win 4).blk t).view.emb j) k)
  refine Finset.sum_congr rfl fun k _ => ?_
  have h0 : ((cfg2.win 0).blk t).view.emb (rowIdx j k) = rowIdx (((cfg2.win 4).blk t).view.emb j) k := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 32 + 1 * k.val = k.val; omega
  have h2 : ((cfg2.win 2).blk t).view.emb (colIdx j k) = colIdx (((cfg2.win 4).blk t).view.emb j) k := by
    funext a; apply Fin.ext
    match a with
    | ⟨0, _⟩ => show win2_2.index t (0 : Fin 2) * 32 + 1 * k.val = k.val; omega
    | ⟨1, _⟩ => show win2_2.index t (1 : Fin 2) * 32 + 1 * (j 1).val = win2_4.index t (1 : Fin 2) * 32 + 1 * (j 1).val; omega
  rw [h0, h2]

/-- An index of the first output array lies in point t's block iff each coordinate lies in the block's range. -/
theorem mem_block_first (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v45_0).slice (win2_3.rect t)).set ↔ _
  rw [View.set_slice_whole, Rect.mem_set_unit]
  exact Iff.rfl

theorem mem_block_second (t : Fin cfg2.N) (i : S100000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v45_1).slice (win2_4.rect t)).set ↔ _
  rw [View.set_slice_whole, Rect.mem_set_unit]
  exact Iff.rfl

/-- Row r lies in block r / 5000: the twenty blocks cover the first output array. -/
theorem cover_first (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hN : cfg2.N = 20 := N_2
  refine ⟨⟨(i 0).val / 5000, by rw [hN]; omega⟩, flush2_3 _, ?_⟩
  rw [mem_block_first]
  obtain ⟨e00, e01, e10, e11, e20, e21, e30, e31, e40, e41⟩ := index_maps ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ (i 0).val ∧ (i 0).val < (i 0).val / 5000 * 5000 + 5000; omega
  | ⟨1, _⟩ => show win2_3.index _ (1 : Fin 2) * 32 ≤ (i 1).val ∧ (i 1).val < win2_3.index _ (1 : Fin 2) * 32 + 32; rw [e31]; omega

theorem cover_second (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  have hN : cfg2.N = 20 := N_2
  refine ⟨⟨(i 0).val / 5000, by rw [hN]; omega⟩, flush2_4 _, ?_⟩
  rw [mem_block_second]
  obtain ⟨e00, e01, e10, e11, e20, e21, e30, e31, e40, e41⟩ := index_maps ⟨(i 0).val / 5000, by rw [hN]; omega⟩
  intro a
  match a with
  | ⟨0, _⟩ => show win2_4.index _ (0 : Fin 2) * 5000 ≤ (i 0).val ∧ (i 0).val < win2_4.index _ (0 : Fin 2) * 5000 + 5000; rw [e40]; show (i 0).val / 5000 * 5000 ≤ (i 0).val ∧ (i 0).val < (i 0).val / 5000 * 5000 + 5000; omega
  | ⟨1, _⟩ => show win2_4.index _ (1 : Fin 2) * 32 ≤ (i 1).val ∧ (i 1).val < win2_4.index _ (1 : Fin 2) * 32 + 32; rw [e41]; omega

/-- After the launch the first output array is the whole product with the first weights. -/
theorem array_first (c : Dev nD) :
    (dat2 (F := Ideal) V c).arrAt 3 cfg2.N = mm (V c main_v44) (V c main_arg5) :=
  (dat2 V c).arrAt_eq_of_cover 3 (mm (V c main_v44) (V c main_arg5)) (fun t _ => flushed_first V c t) cover_first

/-- After the launch the second output array is the whole product with the second weights. -/
theorem array_second (c : Dev nD) :
    (dat2 (F := Ideal) V c).arrAt 4 cfg2.N = mm (V c main_v44) (V c main_arg6) :=
  (dat2 V c).arrAt_eq_of_cover 4 (mm (V c main_v44) (V c main_arg6)) (fun t _ => flushed_second V c t) cover_second

end Cert.KernelIdeal.Linear2

end
-- ==== Proof.Combine2.lean ====
/-
  The second layer's combine step (the fourth kernel launch), as a whole array.

  The launch walks twenty row blocks of 5000 rows.  At block t the body adds rows 5000·t … 5000·t + 4999 of the
  aggregated messages and of the root projection, adds the bias row to every row, and takes the maximum with zero;
  it writes the result to the same rows of its output array.  Entry (r, c) of the result depends on entry (r, c)
  of the two inputs and entry (0, c) of the bias row alone, so the blocks written are the row blocks of one
  whole-array function, and since the twenty blocks cover every row the output array ends as that function.
-/
import proofs.«123793_j56332791054868_1_alg».proof.Proof.Gen.KernelIdeal.Frame
import proofs.«123793_j56332791054868_1_alg».proof.Proof.LibBiasRelu
import Idealize.ShloMosaic.Lib.Pipeline.Value
import Idealize.ShloMosaic.Lib.ValueIdx

set_option maxRecDepth 16384

noncomputable section

namespace Cert.KernelIdeal.Combine2

open Cert.KernelIdeal Cert.KernelIdeal.Gen Idealize.ShloMosaic Idealize.ShloMosaic.TcCoe Idealize.SL.Sem
open Idealize.ShloMosaic.Pipeline (Dat)
open Idealize.ShloMosaic.ValueIdx
open Cert.Lib.BiasRelu

-- the buffer contents when the launch is entered
variable (V : (c : Dev nD) → (b : Ref sig .tc) → Buf (Elt Ideal) ((c : Thread nD τ).loc b))

theorem zero_offsets : (![0, 0] : Fin 2 → Nat) = fun _ => 0 := funext fun a => by fin_cases a <;> rfl

/-- The body's result at an index of the block. -/
theorem body_apply (b : Vec Ideal S1x32 .f32) (x0 x1 : Vec Ideal S5000x32 .f32) (j : S5000x32.Idx) :
    k3_pay1 (F := Ideal) b x0 x1 j = combine x0 x1 b j := by
  unfold k3_pay1
  simp only [shapeCast_self]
  show max (x0 j + x1 j + broadcastTo S5000x32 b broadcasts_S1x32_S5000x32 j) (Ideal.ofBits .f32 0x00000000#32) = _
  rw [stretch_apply]
  rfl

/-- The printed index maps over the twenty grid points: the two inputs and the output move by row blocks, the bias
    row stays at its one block. -/
theorem index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the whole-array combine. -/
theorem flushed_out (c : Dev nD) (t : Fin cfg3.N) :
    (dat3 (F := Ideal) V c).flushed 3 t
      = ((cfg3.win 3).blk t).view.read (Elt Ideal) (combine (V c main_v58) (V c main_v45_1) (V c main_v59)) := by
  show (cfg3.win 3).cut (grid3.coords t) ((dat3 V c).after 3 t) = _
  rw [after3_3]
  unfold out3_3
  rw [View.canon_unit_zero zero_offsets]
  simp only [View.ld_unit_zero (S := S5000x32) zero_offsets, View.ld_unit_zero (S := S1x32) zero_offsets]
  obtain ⟨e00, e01, e10, e11, e20, e21, e30, e31⟩ := index_maps t
  funext j
  refine (body_apply (iblk3 V c 2 t) (iblk3 V c 0 t) (iblk3 V c 1 t) j).trans ?_
  show max ((show FVec Ideal S100000x32 .f32 from V c main_v58) (((cfg3.win 0).blk t).view.emb j) + (show FVec Ideal S100000x32 .f32 from V c main_v45_1) (((cfg3.win 1).blk t).view.emb j)
        + (show FVec Ideal S1x32 .f32 from V c main_v59) (((cfg3.win 2).blk t).view.emb (biasIdx j))) (Ideal.ofBits .f32 0x00000000#32)
      = max ((show FVec Ideal S100000x32 .f32 from V c main_v58) (((cfg3.win 3).blk t).view.emb j) + (show FVec Ideal S100000x32 .f32 from V c main_v45_1) (((cfg3.win 3).blk t).view.emb j)
        + (show FVec Ideal S1x32 .f32 from V c main_v59) (biasIdx (((cfg3.win 3).blk t).view.emb j))) (Ideal.ofBits .f32 0x00000000#32)
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 32 + 1 * (j 1).val = win3_3.index t (1 : Fin 2) * 32 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 32 + 1 * (j 1).val = win3_3.index t (1 : Fin 2) * 32 + 1 * (j 1).val; omega
  have h2 : ((cfg3.win 2).blk t).view.emb (biasIdx j) = biasIdx (((cfg3.win 3).blk t).view.emb j) := by
    funext a; apply Fin.ext
    match a with
    | ⟨0, _⟩ => show win3_2.index t (0 : Fin 2) * 1 + 1 * 0 = 0; omega
    | ⟨1, _⟩ => show win3_2.index t (1 : Fin 2) * 32 + 1 * (j 1).val = win3_3.index t (1 : Fin 2) * 32 + 1 * (j 1).val; omega
  rw [h0, h1, h2]

/-- An index of the output array lies in point t's block iff each coordinate lies in the block's range. -/
theorem mem_block (t : Fin cfg3.N) (i : S100000x32.Idx) :
    i ∈ ((cfg3.win 3).blk t).view.set ↔ ∀ a : Fin 2, win3_3.index t a * S5000x32.size a ≤ (i a).val ∧ (i a).val < win3_3.index t a * S5000x32.size a + S5000x32.size a := by
  show i ∈ ((View.whole main_v60).slice (win3_3.rect t)).set ↔ _
  rw [View.set_slice_whole, Rect.mem_set_unit]
  exact Iff.rfl

/-- Row r lies in block r / 5000: the twenty blocks cover the output array. -/
theorem cover (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hN : cfg3.N = 20 := N_3
  refine ⟨⟨(i 0).val / 5000, by rw [hN]; omega⟩, flush3_3 _, ?_⟩
  rw [mem_block]
  obtain ⟨e00, e01, e10, e11, e20, e21, e30, e31⟩ := index_maps ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e30]; show (i 0).val / 5000 * 5000 ≤ (i 0).val ∧ (i 0).val < (i 0).val / 5000 * 5000 + 5000; omega
  | ⟨1, _⟩ => show win3_3.index _ (1 : Fin 2) * 32 ≤ (i 1).val ∧ (i 1).val < win3_3.index _ (1 : Fin 2) * 32 + 32; rw [e31]; omega

/-- After the launch the output array is the whole-array combine of the three inputs. -/
theorem array_out (c : Dev nD) :
    (dat3 (F := Ideal) V c).arrAt 3 cfg3.N = combine (V c main_v58) (V c main_v45_1) (V c main_v59) :=
  (dat3 V c).arrAt_eq_of_cover 3 (combine (V c main_v58) (V c main_v45_1) (V c main_v59)) (fun t _ => flushed_out V c t) cover

end Cert.KernelIdeal.Combine2

end
-- ==== Proof.Boundaries.lean ====
/-
  The kernel's result as a function of its arguments.

  The program's buffer contents are followed from the launch memory through the host stretches and the five
  launches.  At each boundary the buffers the later steps read are identified with the reference's stages of the
  argument arrays: the edges' endpoints and normalisation coefficients before the first launch; the two projections
  after it; the aggregated messages and the bias row after the next stretch; the combined, rectified features
  after the second launch; the same three steps for the second layer; and the head after the last launch.  A buffer
  that a step does not write is carried across it unchanged.
-/
import proofs.«123793_j56332791054868_1_alg».proof.Proof.Gen.KernelIdeal.Frame
import proofs.«123793_j56332791054868_1_alg».proof.Proof.HostSteps
import proofs.«123793_j56332791054868_1_alg».proof.Proof.NormStep
import proofs.«123793_j56332791054868_1_alg».proof.Proof.StageMatch
import proofs.«123793_j56332791054868_1_alg».proof.Proof.Linear1
import proofs.«123793_j56332791054868_1_alg».proof.Proof.Combine1
import proofs.«123793_j56332791054868_1_alg».proof.Proof.Linear2
import proofs.«123793_j56332791054868_1_alg».proof.Proof.Combine2
import proofs.«123793_j56332791054868_1_alg».proof.Proof.Head

set_option maxRecDepth 16384

noncomputable section

namespace Cert.KernelIdeal.Boundaries

open Cert.KernelIdeal Cert.KernelIdeal.Gen Idealize.ShloMosaic Idealize.ShloMosaic.TcCoe Idealize.SL.Sem
open Cert.KernelIdeal.HostSteps
open Cert.ReferenceIdeal.ReadP

variable (m : (ℓ : Loc nD τ sig) → Buf (Elt Ideal) ℓ) (ρ : Dev nD → PrngReg)

/-! ## The arguments, where a step reads them -/

/-- Nothing up to this boundary writes argument 0. -/
theorem arg0_at3 (c : Dev nD) : W3 m ρ c (Proc.devRef .tc main_arg0) = (m ((c : Thread nD τ).loc main_arg0)) :=
  (keep_before (W0 m ρ c) main_arg0 (by decide) (by decide) (by decide))
/-- Nothing up to this boundary writes argument 2. -/
theorem arg2_at3 (c : Dev nD) : W3 m ρ c (Proc.devRef .tc main_arg2) = (m ((c : Thread nD τ).loc main_arg2)) :=
  (keep_before (W0 m ρ c) main_arg2 (by decide) (by decide) (by decide))
/-- Nothing up to this boundary writes argument 3. -/
theorem arg3_at3 (c : Dev nD) : W3 m ρ c (Proc.devRef .tc main_arg3) = (m ((c : Thread nD τ).loc main_arg3)) :=
  (keep_before (W0 m ρ c) main_arg3 (by decide) (by decide) (by decide))
/-- Nothing up to this boundary writes argument 4. -/
theorem arg4_at4 (c : Dev nD) : W4 m ρ c (Proc.devRef .tc main_arg4) = (m ((c : Thread nD τ).loc main_arg4)) :=
  ((W4_of_ne m ρ c main_arg4 (by decide)).trans (keep_before (W0 m ρ c) main_arg4 (by decide) (by decide) (by decide)))
/-- Nothing up to this boundary writes argument 5. -/
theorem arg5_at6 (c : Dev nD) : W6 m ρ c (Proc.devRef .tc main_arg5) = (m ((c : Thread nD τ).loc main_arg5)) :=
  ((W6_of_ne m ρ c main_arg5 (by decide)).trans ((keep1 (W4 m ρ c) main_arg5 (by decide)).trans ((W4_of_ne m ρ c main_arg5 (by decide)).trans (keep_before (W0 m ρ c) main_arg5 (by decide) (by decide) (by decide)))))
/-- Nothing up to this boundary writes argument 6. -/
theorem arg6_at6 (c : Dev nD) : W6 m ρ c (Proc.devRef .tc main_arg6) = (m ((c : Thread nD τ).loc main_arg6)) :=
  ((W6_of_ne m ρ c main_arg6 (by decide)).trans ((keep1 (W4 m ρ c) main_arg6 (by decide)).trans ((W4_of_ne m ρ c main_arg6 (by decide)).trans (keep_before (W0 m ρ c) main_arg6 (by decide) (by decide) (by decide)))))
/-- Nothing up to this boundary writes argument 7. -/
theorem arg7_at7 (c : Dev nD) : W7 m ρ c (Proc.devRef .tc main_arg7) = (m ((c : Thread nD τ).loc main_arg7)) :=
  ((W7_of_ne m ρ c main_arg7 (by decide)).trans ((W6_of_ne m ρ c main_arg7 (by decide)).trans ((keep1 (W4 m ρ c) main_arg7 (by decide)).trans ((W4_of_ne m ρ c main_arg7 (by decide)).trans (keep_before (W0 m ρ c) main_arg7 (by decide) (by decide) (by decide))))))
/-- Nothing up to this boundary writes argument 9. -/
theorem arg9_at9 (c : Dev nD) : W9 m ρ c (Proc.devRef .tc main_arg9) = (m ((c : Thread nD τ).loc main_arg9)) :=
  ((W9_of_ne m ρ c main_arg9 (by decide)).trans ((keep3 (W7 m ρ c) main_arg9 (by decide)).trans ((W7_of_ne m ρ c main_arg9 (by decide)).trans ((W6_of_ne m ρ c main_arg9 (by decide)).trans ((keep1 (W4 m ρ c) main_arg9 (by decide)).trans ((W4_of_ne m ρ c main_arg9 (by decide)).trans (keep_before (W0 m ρ c) main_arg9 (by decide) (by decide) (by decide))))))))
/-- Nothing up to this boundary writes argument 8. -/
theorem arg8_at10 (c : Dev nD) : W10 m ρ c (Proc.devRef .tc main_arg8) = (m ((c : Thread nD τ).loc main_arg8)) :=
  ((keep4 (W9 m ρ c) main_arg8 (by decide)).trans ((W9_of_ne m ρ c main_arg8 (by decide)).trans ((keep3 (W7 m ρ c) main_arg8 (by decide)).trans ((W7_of_ne m ρ c main_arg8 (by decide)).trans ((W6_of_ne m ρ c main_arg8 (by decide)).trans ((keep1 (W4 m ρ c) main_arg8 (by decide)).trans ((W4_of_ne m ρ c main_arg8 (by decide)).trans (keep_before (W0 m ρ c) main_arg8 (by decide) (by decide) (by decide)))))))))

/-! ## Before the first launch: the edges' endpoints and coefficients -/

theorem norm_at3 (c : Dev nD) : W3 m ρ c (Proc.devRef .tc main_v28) = val_main_v28 (F := Ideal) (m ((c : Thread nD τ).loc main_arg1)) := NormStep.norm_before (W0 m ρ c)
theorem src_at3 (c : Dev nD) : W3 m ρ c (Proc.devRef .tc main_v1) = val_main_v1 (F := Ideal) (m ((c : Thread nD τ).loc main_arg1)) := NormStep.src_before (W0 m ρ c)
theorem tgt_at3 (c : Dev nD) : W3 m ρ c (Proc.devRef .tc main_v3) = val_main_v3 (F := Ideal) (m ((c : Thread nD τ).loc main_arg1)) := NormStep.tgt_before (W0 m ρ c)

theorem norm_at4 (c : Dev nD) : W4 m ρ c (Proc.devRef .tc main_v28) = val_main_v28 (F := Ideal) (m ((c : Thread nD τ).loc main_arg1)) := (W4_of_ne m ρ c main_v28 (by decide)).trans (norm_at3 m ρ c)
theorem src_at4 (c : Dev nD) : W4 m ρ c (Proc.devRef .tc main_v1) = val_main_v1 (F := Ideal) (m ((c : Thread nD τ).loc main_arg1)) := (W4_of_ne m ρ c main_v1 (by decide)).trans (src_at3 m ρ c)
theorem tgt_at4 (c : Dev nD) : W4 m ρ c (Proc.devRef .tc main_v3) = val_main_v3 (F := Ideal) (m ((c : Thread nD τ).loc main_arg1)) := (W4_of_ne m ρ c main_v3 (by decide)).trans (tgt_at3 m ρ c)

theorem norm_at7 (c : Dev nD) : W7 m ρ c (Proc.devRef .tc main_v28) = val_main_v28 (F := Ideal) (m ((c : Thread nD τ).loc main_arg1)) := ((W7_of_ne m ρ c main_v28 (by decide)).trans ((W6_of_ne m ρ c main_v28 (by decide)).trans (keep1 (W4 m ρ c) main_v28 (by decide)))).trans (norm_at4 m ρ c)
theorem src_at7 (c : Dev nD) : W7 m ρ c (Proc.devRef .tc main_v1) = val_main_v1 (F := Ideal) (m ((c : Thread nD τ).loc main_arg1)) := ((W7_of_ne m ρ c main_v1 (by decide)).trans ((W6_of_ne m ρ c main_v1 (by decide)).trans (keep1 (W4 m ρ c) main_v1 (by decide)))).trans (src_at4 m ρ c)
theorem tgt_at7 (c : Dev nD) : W7 m ρ c (Proc.devRef .tc main_v3) = val_main_v3 (F := Ideal) (m ((c : Thread nD τ).loc main_arg1)) := ((W7_of_ne m ρ c main_v3 (by decide)).trans ((W6_of_ne m ρ c main_v3 (by decide)).trans (keep1 (W4 m ρ c) main_v3 (by decide)))).trans (tgt_at4 m ρ c)

/-! ## The first layer -/

/-- After the first launch: the projection by the first layer's message weights. -/
theorem proj1_at4 (c : Dev nD) : W4 m ρ c (Proc.devRef .tc main_v29_0) = val_main_v33 (F := Ideal) (m ((c : Thread nD τ).loc main_arg0)) (m ((c : Thread nD τ).loc main_arg2)) :=
  (W4_arr m ρ c 3).trans ((Linear1.array_first (V3 m ρ) c).trans (by
    rw [show V3 m ρ c main_arg0 = (m ((c : Thread nD τ).loc main_arg0)) from arg0_at3 m ρ c, show V3 m ρ c main_arg2 = (m ((c : Thread nD τ).loc main_arg2)) from arg2_at3 m ρ c]
    exact Cert.StageMatch.proj1 _ _))

/-- After the first launch: the projection by the first layer's root weights. -/
theorem root1_at4 (c : Dev nD) : W4 m ρ c (Proc.devRef .tc main_v29_1) = val_main_v47 (F := Ideal) (m ((c : Thread nD τ).loc main_arg0)) (m ((c : Thread nD τ).loc main_arg3)) :=
  (W4_arr m ρ c 4).trans ((Linear1.array_second (V3 m ρ) c).trans (by
    rw [show V3 m ρ c main_arg0 = (m ((c : Thread nD τ).loc main_arg0)) from arg0_at3 m ρ c, show V3 m ρ c main_arg3 = (m ((c : Thread nD τ).loc main_arg3)) from arg3_at3 m ρ c]
    exact Cert.StageMatch.root1 _ _))

/-- The aggregated messages of the first layer. -/
theorem agg1_at5 (c : Dev nD) : W5 m ρ c (Proc.devRef .tc main_v42) = val_main_v46 (F := Ideal) (m ((c : Thread nD τ).loc main_arg0)) (m ((c : Thread nD τ).loc main_arg1)) (m ((c : Thread nD τ).loc main_arg2)) :=
  (read_agg1 (W4 m ρ c)).trans (by
    rw [norm_at4 m ρ c, src_at4 m ρ c, tgt_at4 m ρ c, proj1_at4 m ρ c]
    exact Cert.StageMatch.agg1 _ _ _)

/-- The first bias vector as a row. -/
theorem bias1_at5 (c : Dev nD) : W5 m ρ c (Proc.devRef .tc main_v43) = shapeCast S1x32 (m ((c : Thread nD τ).loc main_arg4)) Facts₀.shapeCasts_S32_S1x32 :=
  (read_bias1 (W4 m ρ c)).trans (by rw [arg4_at4 m ρ c])

theorem root1_at5 (c : Dev nD) : W5 m ρ c (Proc.devRef .tc main_v29_1) = val_main_v47 (F := Ideal) (m ((c : Thread nD τ).loc main_arg0)) (m ((c : Thread nD τ).loc main_arg3)) :=
  (keep1 (W4 m ρ c) main_v29_1 (by decide)).trans (root1_at4 m ρ c)

/-- After the second launch: the first layer's features. -/
theorem out1_at6 (c : Dev nD) : W6 m ρ c (Proc.devRef .tc main_v44) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 3).trans ((Combine1.array_out (V5 m ρ) c).trans (by
    rw [show V5 m ρ c main_v42 = _ from agg1_at5 m ρ c, show V5 m ρ c main_v29_1 = _ from root1_at5 m ρ c,
      show V5 m ρ c main_v43 = _ from bias1_at5 m ρ c]
    exact Cert.StageMatch.layer1 _ _ _ _ _ _))

/-! ## The second layer -/

theorem proj2_at7 (c : Dev nD) : W7 m ρ c (Proc.devRef .tc main_v45_0) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 3).trans ((Linear2.array_first (V6 m ρ) c).trans (by
    rw [show V6 m ρ c main_v44 = _ from out1_at6 m ρ c, show V6 m ρ c main_arg5 = (m ((c : Thread nD τ).loc main_arg5)) from arg5_at6 m ρ c]
    exact Cert.StageMatch.proj2 _ _ _ _ _ _))

theorem root2_at7 (c : Dev nD) : W7 m ρ c (Proc.devRef .tc main_v45_1) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) :=
  (W7_arr m ρ c 4).trans ((Linear2.array_second (V6 m ρ) c).trans (by
    rw [show V6 m ρ c main_v44 = _ from out1_at6 m ρ c, show V6 m ρ c main_arg6 = (m ((c : Thread nD τ).loc main_arg6)) from arg6_at6 m ρ c]
    exact Cert.StageMatch.root2 _ _ _ _ _ _))

theorem agg2_at8 (c : Dev nD) : W8 m ρ c (Proc.devRef .tc main_v58) = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (read_agg2 (W7 m ρ c)).trans (by
    rw [norm_at7 m ρ c, src_at7 m ρ c, tgt_at7 m ρ c, proj2_at7 m ρ c]
    exact Cert.StageMatch.agg2 _ _ _ _ _ _)

theorem bias2_at8 (c : Dev nD) : W8 m ρ c (Proc.devRef .tc main_v59) = shapeCast S1x32 (m ((c : Thread nD τ).loc main_arg7)) Facts₀.shapeCasts_S32_S1x32 :=
  (read_bias2 (W7 m ρ c)).trans (by rw [arg7_at7 m ρ c])

theorem root2_at8 (c : Dev nD) : W8 m ρ c (Proc.devRef .tc main_v45_1) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) :=
  (keep3 (W7 m ρ c) main_v45_1 (by decide)).trans (root2_at7 m ρ c)

/-- After the fourth launch: the second layer's features. -/
theorem out2_at9 (c : Dev nD) : W9 m ρ c (Proc.devRef .tc main_v60) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W9_arr m ρ c 3).trans ((Combine2.array_out (V8 m ρ) c).trans (by
    rw [show V8 m ρ c main_v58 = _ from agg2_at8 m ρ c, show V8 m ρ c main_v45_1 = _ from root2_at8 m ρ c,
      show V8 m ρ c main_v59 = _ from bias2_at8 m ρ c]
    exact Cert.StageMatch.layer2 _ _ _ _ _ _ _ _ _))

/-! ## The head -/

theorem out2_at10 (c : Dev nD) : W10 m ρ c (Proc.devRef .tc main_v60) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (keep4 (W9 m ρ c) main_v60 (by decide)).trans (out2_at9 m ρ c)

theorem bias3_at10 (c : Dev nD) : W10 m ρ c (Proc.devRef .tc main_v61) = shapeCast S1x1 (m ((c : Thread nD τ).loc main_arg9)) Facts₀.shapeCasts_S1_S1x1 :=
  (read_bias3 (W9 m ρ c)).trans (by rw [arg9_at9 m ρ c])

/-- After the last launch the result array is the reference's result stage of the ten argument arrays. -/
theorem result (c : Dev nD) : W11 m ρ c (Proc.devRef .tc main_v62) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W11_arr m ρ c 3).trans ((Head.array_out (V10 m ρ) c).trans (by
    rw [show V10 m ρ c main_v60 = _ from out2_at10 m ρ c, show V10 m ρ c main_arg8 = (m ((c : Thread nD τ).loc main_arg8)) from arg8_at10 m ρ c,
      show V10 m ρ c main_v61 = _ from bias3_at10 m ρ c]
    exact Cert.StageMatch.out _ _ _ _ _ _ _ _ _ _ _))

end Cert.KernelIdeal.Boundaries

end
-- ==== Proof.lean ====
/-
  The certificate's claims.

  The kernel is a two-layer graph network: per layer, two projections of the node features (tiled over row
  blocks in a kernel launch), the messages gathered along the edges, scaled by the symmetric degree normalisation
  and summed at the target nodes (host operations), and a combine step max (agg + root + bias, 0) (a second
  launch); then a linear head (a last launch).  The reference computes the same functions without tiling, takes
  the maximum with zero twice per layer, and keeps every number in one float format.

  At the ideal values a change of float format is the identity and a matrix product is the plain sum over the
  contracted axis, so each launch leaves the reference's stage of the same arrays (the launch modules and the
  stage-match module), the host operations between the launches are the reference's own applied to equal
  operands, and the kernel's result array ends at the reference's result term of the argument arrays (the boundary
  module).  No step uses that the inputs are finite: the laws used are the idempotence of max and the equality of
  two spellings of one sum.

  The three frames: the two kernel programs' by the generated frame certificates; the reference's is its run with
  the result dropped.  The idealization rewrote no operation, so there is nothing to preserve.
-/
import proofs.«123793_j56332791054868_1_alg».proof.Defs
import proofs.«123793_j56332791054868_1_alg».proof.Proof.Gen.Kernel
import proofs.«123793_j56332791054868_1_alg».proof.Proof.Gen.Kernel.Frame
import proofs.«123793_j56332791054868_1_alg».proof.Proof.Gen.KernelIdeal
import proofs.«123793_j56332791054868_1_alg».proof.Proof.Gen.KernelIdeal.Frame
import proofs.«123793_j56332791054868_1_alg».proof.Proof.Gen.ReferenceIdeal
import proofs.«123793_j56332791054868_1_alg».proof.Proof.Gen.Pre_finite_inputs
import proofs.«123793_j56332791054868_1_alg».proof.Proof.RefRunPatched
import proofs.«123793_j56332791054868_1_alg».proof.Proof.RefReadPatched
import proofs.«123793_j56332791054868_1_alg».proof.Proof.KernelRun
import proofs.«123793_j56332791054868_1_alg».proof.Proof.Boundaries
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

/-- From memories agreeing on the ten arguments both programs run, and both result arrays end at the
    reference's result stage of those arguments. -/
theorem algebraic : Cert.algebraic_KernelIdeal_ReferenceIdeal := by
  intro m ρ m' ρ' _ hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Boundaries.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v82_eq]
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
